-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S1000000 : Shape := ⟨1, ![1000000]⟩
abbrev S500000 : Shape := ⟨1, ![500000]⟩
abbrev S250000 : Shape := ⟨1, ![250000]⟩
abbrev S500x32 : Shape := ⟨2, ![500, 32]⟩
abbrev S32x32 : Shape := ⟨2, ![32, 32]⟩
abbrev S32 : Shape := ⟨1, ![32]⟩
abbrev S64x256 : Shape := ⟨2, ![64, 256]⟩
abbrev S256 : Shape := ⟨1, ![256]⟩
abbrev S256x256 : Shape := ⟨2, ![256, 256]⟩
abbrev S512x256 : Shape := ⟨2, ![512, 256]⟩
abbrev S_ : Shape := ⟨0, ![]⟩

class Facts : Prop where
  bcast_S_S500x32 : S_.BroadcastsInDim S500x32 (![] : Fin 0 → Fin S500x32.rank)
  reducesTo_S500x32_S_d0_1 : S500x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg16 : FVec F S256x256 .f32) (main_arg17 : FVec F S256 .f32) (main_arg18 : FVec F S512x256 .f32) (main_arg19 : FVec F S256 .f32) (main_v33 : IVec S_ 1) : IVec S_ 1 :=
  let main_v34 : FVec F S256x256 .f32 := Host.absf main_arg16
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg17
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x256 .f32 := Host.absf main_arg18
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg19
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg13 : FVec F S32 .f32) (main_arg14 : FVec F S64x256 .f32) (main_arg15 : FVec F S256 .f32) (main_arg16 : FVec F S256x256 .f32) (main_arg17 : FVec F S256 .f32) (main_arg18 : FVec F S512x256 .f32) (main_arg19 : FVec F S256 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg13
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x256 .f32 := Host.absf main_arg14
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg15
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg16 main_arg17 main_arg18 main_arg19 main_v33

def fn {F : FTy → Type} [FloatOps F] (main_arg0 : IVec S2000000 32) (main_arg1 : IVec S2000000 32) (main_arg2 : IVec S2000000 32) (main_arg3 : IVec S1000000 32) (main_arg4 : IVec S1000000 32) (main_arg5 : IVec S500000 32) (main_arg6 : IVec S500000 32) (main_arg7 : IVec S250000 32) (main_arg8 : IVec S250000 32) (main_arg9 : FVec F S500x32 .f32) (main_arg10 : FVec F S32x32 .f32) (main_arg11 : FVec F S32 .f32) (main_arg12 : FVec F S32x32 .f32) (main_arg13 : FVec F S32 .f32) (main_arg14 : FVec F S64x256 .f32) (main_arg15 : FVec F S256 .f32) (main_arg16 : FVec F S256x256 .f32) (main_arg17 : FVec F S256 .f32) (main_arg18 : FVec F S512x256 .f32) (main_arg19 : FVec F S256 .f32) : IVec S_ 1 :=
  let main_v0 : FVec F S500x32 .f32 := Host.absf main_arg9
  let main_cst : FVec F S_ .f32 := constant S_ .f32 0x7F800000#32
  let main_v1 : FVec F S500x32 .f32 := broadcastInDim S500x32 ![] bcast_S_S500x32 main_cst
  let main_v2 : IVec S500x32 1 := cmpf .olt main_v0 main_v1
  let main_c : IVec S_ 1 := constantI S_ 1 1#1
  let main_v3 : IVec S_ 1 := (fun x v => Host.reduce IntOp.andi x v reducesTo_S500x32_S_d0_1 h_S_) main_v2 main_c
  let main_v4 : FVec F S32x32 .f32 := Host.absf main_arg10
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg11
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg12
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg13 main_arg14 main_arg15 main_arg16 main_arg17 main_arg18 main_arg19 main_v13 main_v16
-- ==== Kernel.lean ====
abbrev S2000000 : Shape := ⟨1, ![2000000]⟩
abbrev S1000000 : Shape := ⟨1, ![1000000]⟩
abbrev S500000 : Shape := ⟨1, ![500000]⟩
abbrev S250000 : Shape := ⟨1, ![250000]⟩
abbrev S500x32 : Shape := ⟨2, ![500, 32]⟩
abbrev S32x32 : Shape := ⟨2, ![32, 32]⟩
abbrev S32 : Shape := ⟨1, ![32]⟩
abbrev S64x256 : Shape := ⟨2, ![64, 256]⟩
abbrev S256 : Shape := ⟨1, ![256]⟩
abbrev S256x256 : Shape := ⟨2, ![256, 256]⟩
abbrev S512x256 : Shape := ⟨2, ![512, 256]⟩
abbrev S32x64 : Shape := ⟨2, ![32, 64]⟩
abbrev S64 : Shape := ⟨1, ![64]⟩
abbrev S500x64 : Shape := ⟨2, ![500, 64]⟩
abbrev S1x64 : Shape := ⟨2, ![1, 64]⟩
abbrev S_ : Shape := ⟨0, ![]⟩
abbrev S2000000x1 : Shape := ⟨2, ![2000000, 1]⟩
abbrev S2000000x64 : Shape := ⟨2, ![2000000, 64]⟩
abbrev S2000000x32 : Shape := ⟨2, ![2000000, 32]⟩
abbrev S200000x32 : Shape := ⟨2, ![200000, 32]⟩
abbrev S200000 : Shape := ⟨1, ![200000]⟩
abbrev S200000x1 : Shape := ⟨2, ![200000, 1]⟩
abbrev S150000x32 : Shape := ⟨2, ![150000, 32]⟩
abbrev S150000 : Shape := ⟨1, ![150000]⟩
abbrev S150000x1 : Shape := ⟨2, ![150000, 1]⟩
abbrev S150000x64 : Shape := ⟨2, ![150000, 64]⟩
abbrev S1000000x1 : Shape := ⟨2, ![1000000, 1]⟩
abbrev S120000 : Shape := ⟨1, ![120000]⟩
abbrev S120000x1 : Shape := ⟨2, ![120000, 1]⟩
abbrev S1000000x64 : Shape := ⟨2, ![1000000, 64]⟩
abbrev S120000x64 : Shape := ⟨2, ![120000, 64]⟩
abbrev S1x256 : Shape := ⟨2, ![1, 256]⟩
abbrev S120000x256 : Shape := ⟨2, ![120000, 256]⟩
abbrev S8000x64 : Shape := ⟨2, ![8000, 64]⟩
abbrev S8000x256 : Shape := ⟨2, ![8000, 256]⟩
abbrev S500000x1 : Shape := ⟨2, ![500000, 1]⟩
abbrev S100000 : Shape := ⟨1, ![100000]⟩
abbrev S100000x1 : Shape := ⟨2, ![100000, 1]⟩
abbrev S500000x256 : Shape := ⟨2, ![500000, 256]⟩
abbrev S100000x256 : Shape := ⟨2, ![100000, 256]⟩
abbrev S4000x256 : Shape := ⟨2, ![4000, 256]⟩
abbrev S256x512 : Shape := ⟨2, ![256, 512]⟩
abbrev S512 : Shape := ⟨1, ![512]⟩
abbrev S1x512 : Shape := ⟨2, ![1, 512]⟩
abbrev S100000x512 : Shape := ⟨2, ![100000, 512]⟩
abbrev S4000x512 : Shape := ⟨2, ![4000, 512]⟩
abbrev S250000x1 : Shape := ⟨2, ![250000, 1]⟩
abbrev S250000x2 : Shape := ⟨2, ![250000, 2]⟩
abbrev S250000x256 : Shape := ⟨2, ![250000, 256]⟩

abbrev nBuf : Space → Nat
  | .hbm => 187
  | .vmem => 18
  | .smem => 0
  | _ => 0

abbrev hbmTy0_0 (i : Nat) : BufTy := match i % 128 with
  | 0 => ⟨S2000000, .i32⟩
  | 1 => ⟨S2000000, .i32⟩
  | 2 => ⟨S2000000, .i32⟩
  | 3 => ⟨S1000000, .i32⟩
  | 4 => ⟨S1000000, .i32⟩
  | 5 => ⟨S500000, .i32⟩
  | 6 => ⟨S500000, .i32⟩
  | 7 => ⟨S250000, .i32⟩
  | 8 => ⟨S250000, .i32⟩
  | 9 => ⟨S500x32, .f32⟩
  | 10 => ⟨S32x32, .f32⟩
  | 11 => ⟨S32, .f32⟩
  | 12 => ⟨S32x32, .f32⟩
  | 13 => ⟨S32, .f32⟩
  | 14 => ⟨S64x256, .f32⟩
  | 15 => ⟨S256, .f32⟩
  | 16 => ⟨S256x256, .f32⟩
  | 17 => ⟨S256, .f32⟩
  | 18 => ⟨S512x256, .f32⟩
  | 19 => ⟨S256, .f32⟩
  | 20 => ⟨S32x64, .f32⟩
  | 21 => ⟨S64, .f32⟩
  | 22 => ⟨S500x64, .f32⟩
  | 23 => ⟨S1x64, .f32⟩
  | 24 => ⟨S500x64, .f32⟩
  | 25 => ⟨S500x64, .f32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000x64, .f32⟩
  | 35 => ⟨S2000000x32, .f32⟩
  | 36 => ⟨S2000000x32, .f32⟩
  | 37 => ⟨S_, .f32⟩
  | 38 => ⟨S200000x32, .f32⟩
  | 39 => ⟨S2000000x1, .i32⟩
  | 40 => ⟨S200000x32, .f32⟩
  | 41 => ⟨S_, .f32⟩
  | 42 => ⟨S2000000, .f32⟩
  | 43 => ⟨S_, .f32⟩
  | 44 => ⟨S200000, .f32⟩
  | 45 => ⟨S2000000x1, .i32⟩
  | 46 => ⟨S200000, .f32⟩
  | 47 => ⟨S_, .f32⟩
  | 48 => ⟨S200000, .f32⟩
  | 49 => ⟨S200000, .f32⟩
  | 50 => ⟨S200000x1, .f32⟩
  | 51 => ⟨S200000x32, .f32⟩
  | 52 => ⟨S200000x32, .f32⟩
  | 53 => ⟨S_, .f32⟩
  | 54 => ⟨S150000x32, .f32⟩
  | 55 => ⟨S2000000x1, .i32⟩
  | 56 => ⟨S150000x32, .f32⟩
  | 57 => ⟨S_, .f32⟩
  | 58 => ⟨S2000000, .f32⟩
  | 59 => ⟨S_, .f32⟩
  | 60 => ⟨S150000, .f32⟩
  | 61 => ⟨S2000000x1, .i32⟩
  | 62 => ⟨S150000, .f32⟩
  | 63 => ⟨S_, .f32⟩
  | 64 => ⟨S150000, .f32⟩
  | 65 => ⟨S150000, .f32⟩
  | 66 => ⟨S150000x1, .f32⟩
  | 67 => ⟨S150000x32, .f32⟩
  | 68 => ⟨S150000x32, .f32⟩
  | 69 => ⟨S150000x32, .f32⟩
  | 70 => ⟨S150000x64, .f32⟩
  | 71 => ⟨S_, .f32⟩
  | 72 => ⟨S1000000, .f32⟩
  | 73 => ⟨S_, .f32⟩
  | 74 => ⟨S150000, .f32⟩
  | 75 => ⟨S1000000x1, .i32⟩
  | 76 => ⟨S150000, .f32⟩
  | 77 => ⟨S_, .f32⟩
  | 78 => ⟨S120000, .f32⟩
  | 79 => ⟨S1000000x1, .i32⟩
  | 80 => ⟨S120000, .f32⟩
  | 81 => ⟨S_, .f32⟩
  | 82 => ⟨S150000, .f32⟩
  | 83 => ⟨S150000, .f32⟩
  | 84 => ⟨S150000, .f32⟩
  | 85 => ⟨S150000x1, .f32⟩
  | 86 => ⟨S_, .f32⟩
  | 87 => ⟨S120000, .f32⟩
  | 88 => ⟨S120000, .f32⟩
  | 89 => ⟨S120000, .f32⟩
  | 90 => ⟨S120000x1, .f32⟩
  | 91 => ⟨S150000x64, .f32⟩
  | 92 => ⟨S150000x64, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x64, .f32⟩
  | 102 => ⟨S_, .f32⟩
  | 103 => ⟨S120000x64, .f32⟩
  | 104 => ⟨S1000000x1, .i32⟩
  | 105 => ⟨S120000x64, .f32⟩
  | 106 => ⟨S120000x64, .f32⟩
  | 107 => ⟨S120000x64, .f32⟩
  | 108 => ⟨S1x256, .f32⟩
  | 109 => ⟨S120000x256, .bf16⟩
  | 110 => ⟨S_, .f32⟩
  | 111 => ⟨S500000, .f32⟩
  | 112 => ⟨S_, .f32⟩
  | 113 => ⟨S120000, .f32⟩
  | 114 => ⟨S500000x1, .i32⟩
  | 115 => ⟨S120000, .f32⟩
  | 116 => ⟨S_, .f32⟩
  | 117 => ⟨S100000, .f32⟩
  | 118 => ⟨S500000x1, .i32⟩
  | 119 => ⟨S100000, .f32⟩
  | 120 => ⟨S_, .f32⟩
  | 121 => ⟨S120000, .f32⟩
  | 122 => ⟨S120000, .f32⟩
  | 123 => ⟨S120000, .f32⟩
  | 124 => ⟨S120000x1, .f32⟩
  | 125 => ⟨S_, .f32⟩
  | 126 => ⟨S100000, .f32⟩
  | 127 => ⟨S100000, .f32⟩
  | _ => ⟨S2000000, .i32⟩

abbrev hbmTy0_1 (i : Nat) : BufTy := match i % 128 with
  | 0 => ⟨S100000, .f32⟩
  | 1 => ⟨S100000x1, .f32⟩
  | 2 => ⟨S120000x256, .f32⟩
  | 3 => ⟨S120000x256, .f32⟩
  | 4 => ⟨S120000x256, .f32⟩
  | 5 => ⟨S120000x256, .bf16⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x256, .bf16⟩
  | 15 => ⟨S500000x256, .f32⟩
  | 16 => ⟨S_, .f32⟩
  | 17 => ⟨S100000x256, .f32⟩
  | 18 => ⟨S500000x1, .i32⟩
  | 19 => ⟨S100000x256, .f32⟩
  | 20 => ⟨S100000x256, .f32⟩
  | 21 => ⟨S100000x256, .f32⟩
  | 22 => ⟨S1x256, .f32⟩
  | 23 => ⟨S100000x256, .bf16⟩
  | 24 => ⟨S256x256, .f32⟩
  | 25 => ⟨S256x256, .f32⟩
  | 26 => ⟨S256x512, .f32⟩
  | 27 => ⟨S_, .f32⟩
  | 28 => ⟨S512, .f32⟩
  | 29 => ⟨S1x512, .f32⟩
  | 30 => ⟨S100000x512, .f32⟩
  | 31 => ⟨S_, .i32⟩
  | 32 => ⟨S250000, .i32⟩
  | 33 => ⟨S250000, .i1⟩
  | 34 => ⟨S_, .i32⟩
  | 35 => ⟨S250000, .i32⟩
  | 36 => ⟨S250000, .i32⟩
  | 37 => ⟨S250000, .i32⟩
  | 38 => ⟨S250000x1, .i32⟩
  | 39 => ⟨S_, .i32⟩
  | 40 => ⟨S250000x1, .i32⟩
  | 41 => ⟨S250000x2, .i32⟩
  | 42 => ⟨S250000x256, .f32⟩
  | 43 => ⟨S_, .i32⟩
  | 44 => ⟨S250000, .i32⟩
  | 45 => ⟨S250000, .i1⟩
  | 46 => ⟨S_, .i32⟩
  | 47 => ⟨S250000, .i32⟩
  | 48 => ⟨S250000, .i32⟩
  | 49 => ⟨S250000, .i32⟩
  | 50 => ⟨S250000x1, .i32⟩
  | 51 => ⟨S_, .i32⟩
  | 52 => ⟨S250000x1, .i32⟩
  | 53 => ⟨S250000x2, .i32⟩
  | 54 => ⟨S250000x256, .f32⟩
  | 55 => ⟨S250000x256, .f32⟩
  | 56 => ⟨S1x256, .f32⟩
  | 57 => ⟨S250000x256, .f32⟩
  | 58 => ⟨S250000x256, .f32⟩
  | _ => ⟨S2000000, .i32⟩

abbrev hbmTy (i : Nat) : BufTy := match i / 128 with
  | 0 => hbmTy0_0 i
  | 1 => hbmTy0_1 i
  | _ => ⟨S2000000, .i32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S64x256, .f32⟩
  | .local _ .vmem, ⟨3, _⟩ => ⟨S1x256, .f32⟩
  | .local _ .vmem, ⟨4, _⟩ => ⟨S8000x256, .bf16⟩
  | .local _ .vmem, ⟨5, _⟩ => ⟨S8000x256, .bf16⟩
  | .local _ .vmem, ⟨6, _⟩ => ⟨S4000x256, .f32⟩
  | .local _ .vmem, ⟨7, _⟩ => ⟨S4000x256, .f32⟩
  | .local _ .vmem, ⟨8, _⟩ => ⟨S256x256, .f32⟩
  | .local _ .vmem, ⟨9, _⟩ => ⟨S1x256, .f32⟩
  | .local _ .vmem, ⟨10, _⟩ => ⟨S4000x256, .bf16⟩
  | .local _ .vmem, ⟨11, _⟩ => ⟨S4000x256, .bf16⟩
  | .local _ .vmem, ⟨12, _⟩ => ⟨S4000x256, .bf16⟩
  | .local _ .vmem, ⟨13, _⟩ => ⟨S4000x256, .bf16⟩
  | .local _ .vmem, ⟨14, _⟩ => ⟨S256x512, .f32⟩
  | .local _ .vmem, ⟨15, _⟩ => ⟨S1x512, .f32⟩
  | .local _ .vmem, ⟨16, _⟩ => ⟨S4000x512, .f32⟩
  | .local _ .vmem, ⟨17, _⟩ => ⟨S4000x512, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_12 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_13 : Ref sig .tc := ⟨.hbm, 93, rfl⟩
abbrev main_v58 : Ref sig .tc := ⟨.hbm, 94, rfl⟩
abbrev main_v59 : Ref sig .tc := ⟨.hbm, 95, rfl⟩
abbrev main_c_14 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_15 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_16 : Ref sig .tc := ⟨.hbm, 110, rfl⟩
abbrev main_v72 : Ref sig .tc := ⟨.hbm, 111, rfl⟩
abbrev main_cst_17 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_18 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_19 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_20 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_21 : Ref sig .tc := ⟨.hbm, 134, rfl⟩
abbrev main_v91 : Ref sig .tc := ⟨.hbm, 135, rfl⟩
abbrev main_v92 : Ref sig .tc := ⟨.hbm, 136, rfl⟩
abbrev main_c_22 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_23 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_24 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_c_25 : Ref sig .tc := ⟨.hbm, 159, rfl⟩
abbrev main_v112 : Ref sig .tc := ⟨.hbm, 160, rfl⟩
abbrev main_v113 : Ref sig .tc := ⟨.hbm, 161, rfl⟩
abbrev main_c_26 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_27 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_28 : Ref sig .tc := ⟨.hbm, 171, rfl⟩
abbrev main_v121 : Ref sig .tc := ⟨.hbm, 172, rfl⟩
abbrev main_v122 : Ref sig .tc := ⟨.hbm, 173, rfl⟩
abbrev main_c_29 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_30 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S32x32_S32x32_S32x64_d1 : Shape.Concatenates [S32x32, S32x32] S32x64 1
  concatenates_S32_S32_S64_d0 : Shape.Concatenates [S32, S32] S64 0
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2000000x64_S2000000x32_0_0 : S2000000x64.Slices ![0, 0] S2000000x32
  slices_S2000000x64_S2000000x32_0_32 : S2000000x64.Slices ![0, 32] S2000000x32
  bcast_S_S200000x32 : S_.BroadcastsInDim S200000x32 (![] : Fin 0 → Fin S200000x32.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S_S150000x32 : S_.BroadcastsInDim S150000x32 (![] : Fin 0 → Fin S150000x32.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x32_0_1 : S150000x1.BroadcastsInDim S150000x32 (![0, 1] : Fin 2 → Fin S150000x32.rank)
  slices_S200000x32_S150000x32_0_0 : S200000x32.Slices ![0, 0] S150000x32
  concatenates_S150000x32_S150000x32_S150000x64_d1 : Shape.Concatenates [S150000x32, S150000x32] S150000x64 1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S120000 : S_.BroadcastsInDim S120000 (![] : Fin 0 → Fin S120000.rank)
  bcast_S120000_S120000x1_0 : S120000.BroadcastsInDim S120000x1 (![0] : Fin 1 → Fin S120000x1.rank)
  bcast_S150000x1_S150000x64_0_1 : S150000x1.BroadcastsInDim S150000x64 (![0, 1] : Fin 2 → Fin S150000x64.rank)
  bcast_S_S120000x64 : S_.BroadcastsInDim S120000x64 (![] : Fin 0 → Fin S120000x64.rank)
  bcast_S120000x1_S120000x64_0_1 : S120000x1.BroadcastsInDim S120000x64 (![0, 1] : Fin 2 → Fin S120000x64.rank)
  shapeCasts_S256_S1x256 : S256.ShapeCasts S1x256
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  packedbf16_S8000x256_S8000x256_0_0 : (Rect.unit (s := S8000x256) ![0, 0] S8000x256.size inb_S8000x256_S8000x256_0_0).PackedRows (EltTy.packing .bf16)
  bcast_S_S500000 : S_.BroadcastsInDim S500000 (![] : Fin 0 → Fin S500000.rank)
  bcast_S500000_S500000x1_0 : S500000.BroadcastsInDim S500000x1 (![0] : Fin 1 → Fin S500000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S120000x1_S120000x256_0_1 : S120000x1.BroadcastsInDim S120000x256 (![0, 1] : Fin 2 → Fin S120000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  broadcasts_S1x256_S4000x256 : S1x256.Broadcasts S4000x256
  packedbf16_S4000x256_S4000x256_0_0 : (Rect.unit (s := S4000x256) ![0, 0] S4000x256.size inb_S4000x256_S4000x256_0_0).PackedRows (EltTy.packing .bf16)
  slices_S512x256_S256x256_0_0 : S512x256.Slices ![0, 0] S256x256
  slices_S512x256_S256x256_256_0 : S512x256.Slices ![256, 0] S256x256
  concatenates_S256x256_S256x256_S256x512_d1 : Shape.Concatenates [S256x256, S256x256] S256x512 1
  bcast_S_S512 : S_.BroadcastsInDim S512 (![] : Fin 0 → Fin S512.rank)
  shapeCasts_S512_S1x512 : S512.ShapeCasts S1x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S4000x512_S4000x512_0_0 : ∀ a, (![0, 0] : Fin 2 → Nat) a + S4000x512.size a ≤ S4000x512.size a
  h_S4000x512 : 0 < S4000x512.numel
  bcast_S_S250000 : S_.BroadcastsInDim S250000 (![] : Fin 0 → Fin S250000.rank)
  bcast_S250000_S250000x1_0 : S250000.BroadcastsInDim S250000x1 (![0] : Fin 1 → Fin S250000x1.rank)
  bcast_S_S250000x1 : S_.BroadcastsInDim S250000x1 (![] : Fin 0 → Fin S250000x1.rank)
  concatenates_S250000x1_S250000x1_S250000x2_d1 : Shape.Concatenates [S250000x1, S250000x1] S250000x2 1
  bcast_S256_S1x256_1 : S256.BroadcastsInDim S1x256 (![1] : Fin 1 → Fin S1x256.rank)
  bcast_S1x256_S250000x256_0_1 : S1x256.BroadcastsInDim S250000x256 (![0, 1] : Fin 2 → Fin S250000x256.rank)
  dot_S500x32_S32x64_S500x64_1_0_0_1_n_n_wf : DotDims.WF S500x32 S32x64 S500x64 [1] [0] [0] [1] [] []
  gather_S500x64_S2000000x1_S2000000x64_1_0_n_n_0_1_164_wf : GatherDims.WF S500x64 S2000000x1 S2000000x64 [1] [0] [] [0] [] 1 ![1, 64]
  scatter_S200000x32_S2000000x1_S2000000x32_1_0_0_1_wf : ScatterDims.WF S200000x32 S2000000x1 S2000000x32 [1] [0] [0] 1
  scatter_S200000_S2000000x1_S2000000_n_0_0_1_wf : ScatterDims.WF S200000 S2000000x1 S2000000 [] [0] [0] 1
  scatter_S150000x32_S2000000x1_S2000000x32_1_0_0_1_wf : ScatterDims.WF S150000x32 S2000000x1 S2000000x32 [1] [0] [0] 1
  scatter_S150000_S2000000x1_S2000000_n_0_0_1_wf : ScatterDims.WF S150000 S2000000x1 S2000000 [] [0] [0] 1
  scatter_S150000_S1000000x1_S1000000_n_0_0_1_wf : ScatterDims.WF S150000 S1000000x1 S1000000 [] [0] [0] 1
  scatter_S120000_S1000000x1_S1000000_n_0_0_1_wf : ScatterDims.WF S120000 S1000000x1 S1000000 [] [0] [0] 1
  gather_S150000x64_S1000000x1_S1000000x64_1_0_n_n_0_1_164_wf : GatherDims.WF S150000x64 S1000000x1 S1000000x64 [1] [0] [] [0] [] 1 ![1, 64]
  scatter_S120000x64_S1000000x1_S1000000x64_1_0_0_1_wf : ScatterDims.WF S120000x64 S1000000x1 S1000000x64 [1] [0] [0] 1
  dot_S8000x64_S64x256_S8000x256_1_0_0_1_n_n_wf : DotDims.WF S8000x64 S64x256 S8000x256 [1] [0] [0] [1] [] []
  scatter_S120000_S500000x1_S500000_n_0_0_1_wf : ScatterDims.WF S120000 S500000x1 S500000 [] [0] [0] 1
  scatter_S100000_S500000x1_S500000_n_0_0_1_wf : ScatterDims.WF S100000 S500000x1 S500000 [] [0] [0] 1
  gather_S120000x256_S500000x1_S500000x256_1_0_n_n_0_1_1256_wf : GatherDims.WF S120000x256 S500000x1 S500000x256 [1] [0] [] [0] [] 1 ![1, 256]
  scatter_S100000x256_S500000x1_S500000x256_1_0_0_1_wf : ScatterDims.WF S100000x256 S500000x1 S500000x256 [1] [0] [0] 1
  dot_S4000x256_S256x256_S4000x256_1_0_0_1_n_n_wf : DotDims.WF S4000x256 S256x256 S4000x256 [1] [0] [0] [1] [] []
  dot_S4000x256_S256x512_S4000x512_1_0_0_1_n_n_wf : DotDims.WF S4000x256 S256x512 S4000x512 [1] [0] [0] [1] [] []
  gather_S100000x512_S250000x2_S250000x256_1_0_n_n_01_1_1256_wf : GatherDims.WF S100000x512 S250000x2 S250000x256 [1] [0] [] [0, 1] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S120000x64.size a
  hwx0_0 : ∀ i : grid0.Coords, EltTy.bits .f32 = 32 ∨ (Rect.block (s := S120000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x256.size a ≤ S120000x256.size a
  hwx0_3 : ∀ i : grid0.Coords, EltTy.bits .bf16 = 32 ∨ (Rect.block (s := S120000x256) S8000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S100000x256.size a
  hwx1_3 : ∀ i : grid1.Coords, EltTy.bits .bf16 = 32 ∨ (Rect.block (s := S100000x256) S4000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .bf16 = 32 ∨ (Rect.block (s := S100000x256) S4000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .f32 = 32 ∨ (Rect.block (s := S256x512) S256x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x512.size a ≤ S100000x512.size a
  hwx2_3 : ∀ i : grid2.Coords, EltTy.bits .f32 = 32 ∨ (Rect.block (s := S100000x512) S4000x512.size (cc2_transform_3 i) (hinb2_3 i)).WholeWords (EltTy.packing .f32)

variable [Facts₀]

def dot_S500x32_S32x64_S500x64_1_0_0_1_n_n : DotDims S500x32 S32x64 S500x64 where
  lhsContracting := [1]
  rhsContracting := [0]
  lhsNonContracting := [0]
  rhsNonContracting := [1]
  lhsBatch := []
  rhsBatch := []
  wf := dot_S500x32_S32x64_S500x64_1_0_0_1_n_n_wf
def gather_S500x64_S2000000x1_S2000000x64_1_0_n_n_0_1_164 : GatherDims S500x64 S2000000x1 S2000000x64 where
  offsetDims := [1]
  collapsedSliceDims := [0]
  operandBatchingDims := []
  startIndicesBatchingDims := []
  startIndexMap := [0]
  indexVectorDim := 1
  sliceSizes := ![1, 64]
  wf := gather_S500x64_S2000000x1_S2000000x64_1_0_n_n_0_1_164_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S150000x32_S2000000x1_S2000000x32_1_0_0_1 : ScatterDims S150000x32 S2000000x1 S2000000x32 where
  updateWindowDims := [1]
  insertedWindowDims := [0]
  scatterDimsToOperandDims := [0]
  indexVectorDim := 1
  wf := scatter_S150000x32_S2000000x1_S2000000x32_1_0_0_1_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def scatter_S120000_S1000000x1_S1000000_n_0_0_1 : ScatterDims S120000 S1000000x1 S1000000 where
  updateWindowDims := []
  insertedWindowDims := [0]
  scatterDimsToOperandDims := [0]
  indexVectorDim := 1
  wf := scatter_S120000_S1000000x1_S1000000_n_0_0_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S120000x64_S1000000x1_S1000000x64_1_0_0_1 : ScatterDims S120000x64 S1000000x1 S1000000x64 where
  updateWindowDims := [1]
  insertedWindowDims := [0]
  scatterDimsToOperandDims := [0]
  indexVectorDim := 1
  wf := scatter_S120000x64_S1000000x1_S1000000x64_1_0_0_1_wf
def dot_S8000x64_S64x256_S8000x256_1_0_0_1_n_n : DotDims S8000x64 S64x256 S8000x256 where
  lhsContracting := [1]
  rhsContracting := [0]
  lhsNonContracting := [0]
  rhsNonContracting := [1]
  lhsBatch := []
  rhsBatch := []
  wf := dot_S8000x64_S64x256_S8000x256_1_0_0_1_n_n_wf
def scatter_S120000_S500000x1_S500000_n_0_0_1 : ScatterDims S120000 S500000x1 S500000 where
  updateWindowDims := []
  insertedWindowDims := [0]
  scatterDimsToOperandDims := [0]
  indexVectorDim := 1
  wf := scatter_S120000_S500000x1_S500000_n_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S120000x256_S500000x1_S500000x256_1_0_n_n_0_1_1256 : GatherDims S120000x256 S500000x1 S500000x256 where
  offsetDims := [1]
  collapsedSliceDims := [0]
  operandBatchingDims := []
  startIndicesBatchingDims := []
  startIndexMap := [0]
  indexVectorDim := 1
  sliceSizes := ![1, 256]
  wf := gather_S120000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf
def gather_S100000x512_S250000x2_S250000x256_1_0_n_n_01_1_1256 : GatherDims S100000x512 S250000x2 S250000x256 where
  offsetDims := [1]
  collapsedSliceDims := [0]
  operandBatchingDims := []
  startIndicesBatchingDims := []
  startIndexMap := [0, 1]
  indexVectorDim := 1
  sliceSizes := ![1, 256]
  wf := gather_S100000x512_S250000x2_S250000x256_1_0_n_n_01_1_1256_wf

abbrev win0_0 : Pipeline.Window sig grid0 :=
  Pipeline.Window.ofSpec (Memref.whole main_v69) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg14) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v71) S8000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v103) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg16) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v104) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v105) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v105) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v108) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v110) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v111) S4000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2000000 : Shape := ⟨1, ![2000000]⟩
abbrev S1000000 : Shape := ⟨1, ![1000000]⟩
abbrev S500000 : Shape := ⟨1, ![500000]⟩
abbrev S250000 : Shape := ⟨1, ![250000]⟩
abbrev S500x32 : Shape := ⟨2, ![500, 32]⟩
abbrev S32x32 : Shape := ⟨2, ![32, 32]⟩
abbrev S32 : Shape := ⟨1, ![32]⟩
abbrev S64x256 : Shape := ⟨2, ![64, 256]⟩
abbrev S256 : Shape := ⟨1, ![256]⟩
abbrev S256x256 : Shape := ⟨2, ![256, 256]⟩
abbrev S512x256 : Shape := ⟨2, ![512, 256]⟩
abbrev S_ : Shape := ⟨0, ![]⟩
abbrev S2000000x1 : Shape := ⟨2, ![2000000, 1]⟩
abbrev S2000000x32 : Shape := ⟨2, ![2000000, 32]⟩
abbrev S1x32 : Shape := ⟨2, ![1, 32]⟩
abbrev S200000x32 : Shape := ⟨2, ![200000, 32]⟩
abbrev S200000 : Shape := ⟨1, ![200000]⟩
abbrev S200000x1 : Shape := ⟨2, ![200000, 1]⟩
abbrev S150000x32 : Shape := ⟨2, ![150000, 32]⟩
abbrev S150000 : Shape := ⟨1, ![150000]⟩
abbrev S150000x1 : Shape := ⟨2, ![150000, 1]⟩
abbrev S200000x64 : Shape := ⟨2, ![200000, 64]⟩
abbrev S150000x64 : Shape := ⟨2, ![150000, 64]⟩
abbrev S1000000x1 : Shape := ⟨2, ![1000000, 1]⟩
abbrev S120000 : Shape := ⟨1, ![120000]⟩
abbrev S1000000x64 : Shape := ⟨2, ![1000000, 64]⟩
abbrev S120000x64 : Shape := ⟨2, ![120000, 64]⟩
abbrev S120000x1 : Shape := ⟨2, ![120000, 1]⟩
abbrev S120000x256 : Shape := ⟨2, ![120000, 256]⟩
abbrev S1x256 : Shape := ⟨2, ![1, 256]⟩
abbrev S500000x1 : Shape := ⟨2, ![500000, 1]⟩
abbrev S100000 : Shape := ⟨1, ![100000]⟩
abbrev S500000x256 : Shape := ⟨2, ![500000, 256]⟩
abbrev S100000x256 : Shape := ⟨2, ![100000, 256]⟩
abbrev S100000x1 : Shape := ⟨2, ![100000, 1]⟩
abbrev S250000x1 : Shape := ⟨2, ![250000, 1]⟩
abbrev S250000x256 : Shape := ⟨2, ![250000, 256]⟩
abbrev S250000x512 : Shape := ⟨2, ![250000, 512]⟩

abbrev nBuf : Space → Nat
  | .hbm => 185
  | .vmem => 0
  | .smem => 0
  | _ => 0

abbrev hbmTy0_0 (i : Nat) : BufTy := match i % 128 with
  | 0 => ⟨S2000000, .i32⟩
  | 1 => ⟨S2000000, .i32⟩
  | 2 => ⟨S2000000, .i32⟩
  | 3 => ⟨S1000000, .i32⟩
  | 4 => ⟨S1000000, .i32⟩
  | 5 => ⟨S500000, .i32⟩
  | 6 => ⟨S500000, .i32⟩
  | 7 => ⟨S250000, .i32⟩
  | 8 => ⟨S250000, .i32⟩
  | 9 => ⟨S500x32, .f32⟩
  | 10 => ⟨S32x32, .f32⟩
  | 11 => ⟨S32, .f32⟩
  | 12 => ⟨S32x32, .f32⟩
  | 13 => ⟨S32, .f32⟩
  | 14 => ⟨S64x256, .f32⟩
  | 15 => ⟨S256, .f32⟩
  | 16 => ⟨S256x256, .f32⟩
  | 17 => ⟨S256, .f32⟩
  | 18 => ⟨S512x256, .f32⟩
  | 19 => ⟨S256, .f32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S2000000x1, .i32⟩
  | 28 => ⟨S2000000x32, .f32⟩
  | 29 => ⟨S2000000x32, .f32⟩
  | 30 => ⟨S1x32, .f32⟩
  | 31 => ⟨S2000000x32, .f32⟩
  | 32 => ⟨S2000000x32, .f32⟩
  | 33 => ⟨S_, .f32⟩
  | 34 => ⟨S200000x32, .f32⟩
  | 35 => ⟨S2000000x1, .i32⟩
  | 36 => ⟨S200000x32, .f32⟩
  | 37 => ⟨S_, .f32⟩
  | 38 => ⟨S2000000, .f32⟩
  | 39 => ⟨S_, .f32⟩
  | 40 => ⟨S200000, .f32⟩
  | 41 => ⟨S2000000x1, .i32⟩
  | 42 => ⟨S200000, .f32⟩
  | 43 => ⟨S_, .f32⟩
  | 44 => ⟨S200000, .f32⟩
  | 45 => ⟨S200000, .f32⟩
  | 46 => ⟨S200000x1, .f32⟩
  | 47 => ⟨S200000x32, .f32⟩
  | 48 => ⟨S200000x32, .f32⟩
  | 49 => ⟨S2000000x32, .f32⟩
  | 50 => ⟨S1x32, .f32⟩
  | 51 => ⟨S2000000x32, .f32⟩
  | 52 => ⟨S2000000x32, .f32⟩
  | 53 => ⟨S_, .f32⟩
  | 54 => ⟨S150000x32, .f32⟩
  | 55 => ⟨S2000000x1, .i32⟩
  | 56 => ⟨S150000x32, .f32⟩
  | 57 => ⟨S_, .f32⟩
  | 58 => ⟨S2000000, .f32⟩
  | 59 => ⟨S_, .f32⟩
  | 60 => ⟨S150000, .f32⟩
  | 61 => ⟨S2000000x1, .i32⟩
  | 62 => ⟨S150000, .f32⟩
  | 63 => ⟨S_, .f32⟩
  | 64 => ⟨S150000, .f32⟩
  | 65 => ⟨S150000, .f32⟩
  | 66 => ⟨S150000x1, .f32⟩
  | 67 => ⟨S150000x32, .f32⟩
  | 68 => ⟨S150000x32, .f32⟩
  | 69 => ⟨S_, .i32⟩
  | 70 => ⟨S_, .f32⟩
  | 71 => ⟨S200000x32, .f32⟩
  | 72 => ⟨S200000x64, .f32⟩
  | 73 => ⟨S150000x64, .f32⟩
  | 74 => ⟨S_, .f32⟩
  | 75 => ⟨S1000000, .f32⟩
  | 76 => ⟨S_, .f32⟩
  | 77 => ⟨S150000, .f32⟩
  | 78 => ⟨S1000000x1, .i32⟩
  | 79 => ⟨S150000, .f32⟩
  | 80 => ⟨S_, .f32⟩
  | 81 => ⟨S120000, .f32⟩
  | 82 => ⟨S1000000x1, .i32⟩
  | 83 => ⟨S120000, .f32⟩
  | 84 => ⟨S_, .f32⟩
  | 85 => ⟨S150000, .f32⟩
  | 86 => ⟨S150000, .f32⟩
  | 87 => ⟨S150000, .f32⟩
  | 88 => ⟨S150000x1, .f32⟩
  | 89 => ⟨S150000x64, .f32⟩
  | 90 => ⟨S150000x64, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S_, .f32⟩
  | 101 => ⟨S120000x64, .f32⟩
  | 102 => ⟨S1000000x1, .i32⟩
  | 103 => ⟨S120000x64, .f32⟩
  | 104 => ⟨S_, .f32⟩
  | 105 => ⟨S120000, .f32⟩
  | 106 => ⟨S120000, .f32⟩
  | 107 => ⟨S120000, .f32⟩
  | 108 => ⟨S120000x1, .f32⟩
  | 109 => ⟨S120000x64, .f32⟩
  | 110 => ⟨S120000x64, .f32⟩
  | 111 => ⟨S120000x256, .f32⟩
  | 112 => ⟨S1x256, .f32⟩
  | 113 => ⟨S120000x256, .f32⟩
  | 114 => ⟨S120000x256, .f32⟩
  | 115 => ⟨S_, .f32⟩
  | 116 => ⟨S120000x256, .f32⟩
  | 117 => ⟨S120000x256, .f32⟩
  | 118 => ⟨S_, .f32⟩
  | 119 => ⟨S500000, .f32⟩
  | 120 => ⟨S_, .f32⟩
  | 121 => ⟨S120000, .f32⟩
  | 122 => ⟨S500000x1, .i32⟩
  | 123 => ⟨S120000, .f32⟩
  | 124 => ⟨S_, .f32⟩
  | 125 => ⟨S100000, .f32⟩
  | 126 => ⟨S500000x1, .i32⟩
  | 127 => ⟨S100000, .f32⟩
  | _ => ⟨S2000000, .i32⟩

abbrev hbmTy0_1 (i : Nat) : BufTy := match i % 128 with
  | 0 => ⟨S_, .f32⟩
  | 1 => ⟨S120000, .f32⟩
  | 2 => ⟨S120000, .f32⟩
  | 3 => ⟨S120000, .f32⟩
  | 4 => ⟨S120000x1, .f32⟩
  | 5 => ⟨S120000x256, .f32⟩
  | 6 => ⟨S120000x256, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x256, .f32⟩
  | 16 => ⟨S_, .f32⟩
  | 17 => ⟨S100000x256, .f32⟩
  | 18 => ⟨S500000x1, .i32⟩
  | 19 => ⟨S100000x256, .f32⟩
  | 20 => ⟨S_, .f32⟩
  | 21 => ⟨S100000, .f32⟩
  | 22 => ⟨S100000, .f32⟩
  | 23 => ⟨S100000, .f32⟩
  | 24 => ⟨S100000x1, .f32⟩
  | 25 => ⟨S100000x256, .f32⟩
  | 26 => ⟨S100000x256, .f32⟩
  | 27 => ⟨S100000x256, .f32⟩
  | 28 => ⟨S1x256, .f32⟩
  | 29 => ⟨S100000x256, .f32⟩
  | 30 => ⟨S100000x256, .f32⟩
  | 31 => ⟨S_, .f32⟩
  | 32 => ⟨S100000x256, .f32⟩
  | 33 => ⟨S100000x256, .f32⟩
  | 34 => ⟨S_, .i32⟩
  | 35 => ⟨S250000, .i32⟩
  | 36 => ⟨S250000, .i1⟩
  | 37 => ⟨S_, .i32⟩
  | 38 => ⟨S250000, .i32⟩
  | 39 => ⟨S250000, .i32⟩
  | 40 => ⟨S250000, .i32⟩
  | 41 => ⟨S250000x1, .i32⟩
  | 42 => ⟨S250000x256, .f32⟩
  | 43 => ⟨S_, .i32⟩
  | 44 => ⟨S250000, .i32⟩
  | 45 => ⟨S250000, .i1⟩
  | 46 => ⟨S_, .i32⟩
  | 47 => ⟨S250000, .i32⟩
  | 48 => ⟨S250000, .i32⟩
  | 49 => ⟨S250000, .i32⟩
  | 50 => ⟨S250000x1, .i32⟩
  | 51 => ⟨S250000x256, .f32⟩
  | 52 => ⟨S250000x512, .f32⟩
  | 53 => ⟨S250000x256, .f32⟩
  | 54 => ⟨S1x256, .f32⟩
  | 55 => ⟨S250000x256, .f32⟩
  | 56 => ⟨S250000x256, .f32⟩
  | _ => ⟨S2000000, .i32⟩

abbrev hbmTy (i : Nat) : BufTy := match i / 128 with
  | 0 => hbmTy0_0 i
  | 1 => hbmTy0_1 i
  | _ => ⟨S2000000, .i32⟩

abbrev bufTy : (tb : Table) → Fin (tcTables nBuf tb) → BufTy
  | .hbm, ⟨i, _⟩ => hbmTy i
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_call0_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_11 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_12 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_13 : Ref sig .tc := ⟨.hbm, 91, rfl⟩
abbrev main_v55 : Ref sig .tc := ⟨.hbm, 92, rfl⟩
abbrev main_v56 : Ref sig .tc := ⟨.hbm, 93, rfl⟩
abbrev main_c_14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_15 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_16 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call1_cst : Ref sig .tc := ⟨.hbm, 115, rfl⟩
abbrev main_call1_v0 : Ref sig .tc := ⟨.hbm, 116, rfl⟩
abbrev main_v75 : Ref sig .tc := ⟨.hbm, 117, rfl⟩
abbrev main_cst_17 : Ref sig .tc := ⟨.hbm, 118, rfl⟩
abbrev main_v76 : Ref sig .tc := ⟨.hbm, 119, rfl⟩
abbrev main_cst_18 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_19 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_20 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_21 : Ref sig .tc := ⟨.hbm, 135, rfl⟩
abbrev main_v89 : Ref sig .tc := ⟨.hbm, 136, rfl⟩
abbrev main_v90 : Ref sig .tc := ⟨.hbm, 137, rfl⟩
abbrev main_c_22 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_23 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_24 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call2_cst : Ref sig .tc := ⟨.hbm, 159, rfl⟩
abbrev main_call2_v0 : Ref sig .tc := ⟨.hbm, 160, rfl⟩
abbrev main_v109 : Ref sig .tc := ⟨.hbm, 161, rfl⟩
abbrev main_c_25 : Ref sig .tc := ⟨.hbm, 162, rfl⟩
abbrev main_v110 : Ref sig .tc := ⟨.hbm, 163, rfl⟩
abbrev main_v111 : Ref sig .tc := ⟨.hbm, 164, rfl⟩
abbrev main_c_26 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_c_27 : Ref sig .tc := ⟨.hbm, 171, rfl⟩
abbrev main_v117 : Ref sig .tc := ⟨.hbm, 172, rfl⟩
abbrev main_v118 : Ref sig .tc := ⟨.hbm, 173, rfl⟩
abbrev main_c_28 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S200000x32 : S_.BroadcastsInDim S200000x32 (![] : Fin 0 → Fin S200000x32.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S_S150000x32 : S_.BroadcastsInDim S150000x32 (![] : Fin 0 → Fin S150000x32.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x32_0_1 : S150000x1.BroadcastsInDim S150000x32 (![0, 1] : Fin 2 → Fin S150000x32.rank)
  pads_S150000x32_S200000x32_0500000_000 : S150000x32.Pads (![0, 0] : Fin 2 → Nat) ![50000, 0] ![0, 0] S200000x32
  h_S_ : 0 < S_.numel
  concatenates_S200000x32_S200000x32_S200000x64_d1 : Shape.Concatenates [S200000x32, S200000x32] S200000x64 1
  slices_S200000x64_S150000x64_0_0 : S200000x64.Slices ![0, 0] S150000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S120000 : S_.BroadcastsInDim S120000 (![] : Fin 0 → Fin S120000.rank)
  bcast_S150000x1_S150000x64_0_1 : S150000x1.BroadcastsInDim S150000x64 (![0, 1] : Fin 2 → Fin S150000x64.rank)
  bcast_S_S120000x64 : S_.BroadcastsInDim S120000x64 (![] : Fin 0 → Fin S120000x64.rank)
  bcast_S120000_S120000x1_0 : S120000.BroadcastsInDim S120000x1 (![0] : Fin 1 → Fin S120000x1.rank)
  bcast_S120000x1_S120000x64_0_1 : S120000x1.BroadcastsInDim S120000x64 (![0, 1] : Fin 2 → Fin S120000x64.rank)
  bcast_S256_S1x256_1 : S256.BroadcastsInDim S1x256 (![1] : Fin 1 → Fin S1x256.rank)
  bcast_S1x256_S120000x256_0_1 : S1x256.BroadcastsInDim S120000x256 (![0, 1] : Fin 2 → Fin S120000x256.rank)
  bcast_S_S120000x256 : S_.BroadcastsInDim S120000x256 (![] : Fin 0 → Fin S120000x256.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S100000 : S_.BroadcastsInDim S100000 (![] : Fin 0 → Fin S100000.rank)
  bcast_S120000x1_S120000x256_0_1 : S120000x1.BroadcastsInDim S120000x256 (![0, 1] : Fin 2 → Fin S120000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S1x256_S100000x256_0_1 : S1x256.BroadcastsInDim S100000x256 (![0, 1] : Fin 2 → Fin S100000x256.rank)
  bcast_S_S250000 : S_.BroadcastsInDim S250000 (![] : Fin 0 → Fin S250000.rank)
  bcast_S250000_S250000x1_0 : S250000.BroadcastsInDim S250000x1 (![0] : Fin 1 → Fin S250000x1.rank)
  concatenates_S250000x256_S250000x256_S250000x512_d1 : Shape.Concatenates [S250000x256, S250000x256] S250000x512 1
  bcast_S1x256_S250000x256_0_1 : S1x256.BroadcastsInDim S250000x256 (![0, 1] : Fin 2 → Fin S250000x256.rank)
  gather_S500x32_S2000000x1_S2000000x32_1_0_n_n_0_1_132_wf : GatherDims.WF S500x32 S2000000x1 S2000000x32 [1] [0] [] [0] [] 1 ![1, 32]
  dot_S2000000x32_S32x32_S2000000x32_1_0_0_1_n_n_wf : DotDims.WF S2000000x32 S32x32 S2000000x32 [1] [0] [0] [1] [] []
  scatter_S200000x32_S2000000x1_S2000000x32_1_0_0_1_wf : ScatterDims.WF S200000x32 S2000000x1 S2000000x32 [1] [0] [0] 1
  scatter_S200000_S2000000x1_S2000000_n_0_0_1_wf : ScatterDims.WF S200000 S2000000x1 S2000000 [] [0] [0] 1
  scatter_S150000x32_S2000000x1_S2000000x32_1_0_0_1_wf : ScatterDims.WF S150000x32 S2000000x1 S2000000x32 [1] [0] [0] 1
  scatter_S150000_S2000000x1_S2000000_n_0_0_1_wf : ScatterDims.WF S150000 S2000000x1 S2000000 [] [0] [0] 1
  scatter_S150000_S1000000x1_S1000000_n_0_0_1_wf : ScatterDims.WF S150000 S1000000x1 S1000000 [] [0] [0] 1
  scatter_S120000_S1000000x1_S1000000_n_0_0_1_wf : ScatterDims.WF S120000 S1000000x1 S1000000 [] [0] [0] 1
  gather_S150000x64_S1000000x1_S1000000x64_1_0_n_n_0_1_164_wf : GatherDims.WF S150000x64 S1000000x1 S1000000x64 [1] [0] [] [0] [] 1 ![1, 64]
  scatter_S120000x64_S1000000x1_S1000000x64_1_0_0_1_wf : ScatterDims.WF S120000x64 S1000000x1 S1000000x64 [1] [0] [0] 1
  dot_S120000x64_S64x256_S120000x256_1_0_0_1_n_n_wf : DotDims.WF S120000x64 S64x256 S120000x256 [1] [0] [0] [1] [] []
  scatter_S120000_S500000x1_S500000_n_0_0_1_wf : ScatterDims.WF S120000 S500000x1 S500000 [] [0] [0] 1
  scatter_S100000_S500000x1_S500000_n_0_0_1_wf : ScatterDims.WF S100000 S500000x1 S500000 [] [0] [0] 1
  gather_S120000x256_S500000x1_S500000x256_1_0_n_n_0_1_1256_wf : GatherDims.WF S120000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x256_S100000x256_1_0_0_1_n_n_wf : DotDims.WF S100000x256 S256x256 S100000x256 [1] [0] [0] [1] [] []
  gather_S100000x256_S250000x1_S250000x256_1_0_n_n_0_1_1256_wf : GatherDims.WF S100000x256 S250000x1 S250000x256 [1] [0] [] [0] [] 1 ![1, 256]
  dot_S250000x512_S512x256_S250000x256_1_0_0_1_n_n_wf : DotDims.WF S250000x512 S512x256 S250000x256 [1] [0] [0] [1] [] []

variable [Facts₀]

def gather_S500x32_S2000000x1_S2000000x32_1_0_n_n_0_1_132 : GatherDims S500x32 S2000000x1 S2000000x32 where
  offsetDims := [1]
  collapsedSliceDims := [0]
  operandBatchingDims := []
  startIndicesBatchingDims := []
  startIndexMap := [0]
  indexVectorDim := 1
  sliceSizes := ![1, 32]
  wf := gather_S500x32_S2000000x1_S2000000x32_1_0_n_n_0_1_132_wf
def dot_S2000000x32_S32x32_S2000000x32_1_0_0_1_n_n : DotDims S2000000x32 S32x32 S2000000x32 where
  lhsContracting := [1]
  rhsContracting := [0]
  lhsNonContracting := [0]
  rhsNonContracting := [1]
  lhsBatch := []
  rhsBatch := []
  wf := dot_S2000000x32_S32x32_S2000000x32_1_0_0_1_n_n_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S150000x32_S2000000x1_S2000000x32_1_0_0_1 : ScatterDims S150000x32 S2000000x1 S2000000x32 where
  updateWindowDims := [1]
  insertedWindowDims := [0]
  scatterDimsToOperandDims := [0]
  indexVectorDim := 1
  wf := scatter_S150000x32_S2000000x1_S2000000x32_1_0_0_1_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def scatter_S120000_S1000000x1_S1000000_n_0_0_1 : ScatterDims S120000 S1000000x1 S1000000 where
  updateWindowDims := []
  insertedWindowDims := [0]
  scatterDimsToOperandDims := [0]
  indexVectorDim := 1
  wf := scatter_S120000_S1000000x1_S1000000_n_0_0_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S120000x64_S1000000x1_S1000000x64_1_0_0_1 : ScatterDims S120000x64 S1000000x1 S1000000x64 where
  updateWindowDims := [1]
  insertedWindowDims := [0]
  scatterDimsToOperandDims := [0]
  indexVectorDim := 1
  wf := scatter_S120000x64_S1000000x1_S1000000x64_1_0_0_1_wf
def dot_S120000x64_S64x256_S120000x256_1_0_0_1_n_n : DotDims S120000x64 S64x256 S120000x256 where
  lhsContracting := [1]
  rhsContracting := [0]
  lhsNonContracting := [0]
  rhsNonContracting := [1]
  lhsBatch := []
  rhsBatch := []
  wf := dot_S120000x64_S64x256_S120000x256_1_0_0_1_n_n_wf
def scatter_S120000_S500000x1_S500000_n_0_0_1 : ScatterDims S120000 S500000x1 S500000 where
  updateWindowDims := []
  insertedWindowDims := [0]
  scatterDimsToOperandDims := [0]
  indexVectorDim := 1
  wf := scatter_S120000_S500000x1_S500000_n_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S120000x256_S500000x1_S500000x256_1_0_n_n_0_1_1256 : GatherDims S120000x256 S500000x1 S500000x256 where
  offsetDims := [1]
  collapsedSliceDims := [0]
  operandBatchingDims := []
  startIndicesBatchingDims := []
  startIndexMap := [0]
  indexVectorDim := 1
  sliceSizes := ![1, 256]
  wf := gather_S120000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S250000x1_S250000x256_1_0_n_n_0_1_1256 : GatherDims S100000x256 S250000x1 S250000x256 where
  offsetDims := [1]
  collapsedSliceDims := [0]
  operandBatchingDims := []
  startIndicesBatchingDims := []
  startIndexMap := [0]
  indexVectorDim := 1
  sliceSizes := ![1, 256]
  wf := gather_S100000x256_S250000x1_S250000x256_1_0_n_n_0_1_1256_wf
def dot_S250000x512_S512x256_S250000x256_1_0_0_1_n_n : DotDims S250000x512 S512x256 S250000x256 where
  lhsContracting := [1]
  rhsContracting := [0]
  lhsNonContracting := [0]
  rhsNonContracting := [1]
  lhsBatch := []
  rhsBatch := []
  wf := dot_S250000x512_S512x256_S250000x256_1_0_0_1_n_n_wf

class Facts : Prop extends Facts₀ where

variable [Facts]
-- ==== Proof.KRun.lean ====
/-
  The idealized kernel's run with its RESULT named. @main is seven segments: a stretch of host operations, the
  first matmul region, a second stretch, the second region, a third stretch, the third region and a last stretch.
  The buffer contents at each boundary are a fold from the launch memory (a stretch applies its operations in
  order; a region leaves its arrays at what its write-backs leave and every other buffer as entered). Every
  weakly fair execution terminates, nothing faulting, with the result buffer at the last boundary's contents and
  the argument arrays as launched.
-/
import proofs.«110293_j1056561954976_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the seven segments from the launch memory: the final state holds, on every core, the result
    buffer at the last boundary's contents (every unscoped buffer is read back against the final state) and
    each argument array as launched (no host operation and no region writes one). -/
theorem run_value : θ_run defs (onTc (τ := τ) (main (F := F))) ⟨m, fun _ => 0, ρ⟩ (fun r => ∀ c : Dev nD,
      r.2.mem ((c.tc : Thread nD τ).loc main_v133) = W7 m ρ c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v133 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c)⟩)

end Cert.KernelIdeal.KRun

end
-- ==== Proof.FoldRead.lean ====
/-
  Reading a fold of host operations at a buffer. A stretch of host operations applied in order to buffer
  contents is a fold; at the buffer an operation writes it is that operation's function of the fold at its
  operands, and at any other buffer what was there before. One simplification pass does this for a whole
  stretch; operands listed inside a concatenation's operand list are then finished by rewriting.
-/
import Idealize.ShloMosaic.Lib.StableHlo.Run

open Idealize.ShloMosaic Idealize.ShloMosaic.StableHlo

/-- Reads a fold of host operations at a buffer: one simp pass, then the rewriting loop for what sits under a concatenation's operand list. -/
macro "fold_read" : tactic =>
  `(tactic| (after_results_simp
             repeat (first
               | rw [StableHlo.nullary_result] | rw [StableHlo.unary_result] | rw [StableHlo.binary_result] | rw [StableHlo.ternary_result] | rw [StableHlo.quaternary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.quaternary_result_ne]; rotate_left; decide)
               | (rw [StableHlo.reshape_result_ne]; rotate_left; decide))))
-- ==== Proof.Boundaries.lean ====
/-
  The buffer contents at the boundaries of the kernel program's run, at the buffers the later parts read.
  An argument array is written by no host operation and by no region, so at every boundary it holds its launch
  contents; a region's output array holds, at the region's exit, what the pipeline's write-backs leave.
-/
import proofs.«110293_j1056561954976_2_alg».proof.Proof.Gen.KernelIdeal.Frame
import proofs.«110293_j1056561954976_2_alg».proof.Proof.FoldRead
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer's weight matrix as the first region finds it. -/
theorem W1_arg14 : W1 m ρ c (Proc.devRef .tc main_arg14) = m ((c : Thread nD τ).loc main_arg14) := by
  show StableHlo.after (hostOps0 (F := Ideal)) (W0 m ρ c) (Proc.devRef .tc main_arg14) = _
  fold_read
  try rfl

theorem W2_arg5 : W2 m ρ c (Proc.devRef .tc main_arg5) = m ((c : Thread nD τ).loc main_arg5) := by
  rw [W2_of_ne m ρ c main_arg5 (by decide)]
  show StableHlo.after (hostOps0 (F := Ideal)) (W0 m ρ c) (Proc.devRef .tc main_arg5) = _
  fold_read
  try rfl

theorem W2_arg6 : W2 m ρ c (Proc.devRef .tc main_arg6) = m ((c : Thread nD τ).loc main_arg6) := by
  rw [W2_of_ne m ρ c main_arg6 (by decide)]
  show StableHlo.after (hostOps0 (F := Ideal)) (W0 m ρ c) (Proc.devRef .tc main_arg6) = _
  fold_read
  try rfl

theorem W2_arg16 : W2 m ρ c (Proc.devRef .tc main_arg16) = m ((c : Thread nD τ).loc main_arg16) := by
  rw [W2_of_ne m ρ c main_arg16 (by decide)]
  show StableHlo.after (hostOps0 (F := Ideal)) (W0 m ρ c) (Proc.devRef .tc main_arg16) = _
  fold_read
  try rfl

theorem W2_arg17 : W2 m ρ c (Proc.devRef .tc main_arg17) = m ((c : Thread nD τ).loc main_arg17) := by
  rw [W2_of_ne m ρ c main_arg17 (by decide)]
  show StableHlo.after (hostOps0 (F := Ideal)) (W0 m ρ c) (Proc.devRef .tc main_arg17) = _
  fold_read
  try rfl

/-- The second layer's weight matrix as the second region finds it. -/
theorem W3_arg16 : W3 m ρ c (Proc.devRef .tc main_arg16) = m ((c : Thread nD τ).loc main_arg16) := by
  show StableHlo.after (hostOps1 (F := Ideal)) (W2 m ρ c) (Proc.devRef .tc main_arg16) = _
  fold_read
  exact W2_arg16 m ρ c

/-- The first region's output array at its exit. -/
theorem W2_v71 : W2 m ρ c (Proc.devRef .tc main_v71) = (dat0 (V1 m ρ) c).arrAt 3 cfg0.N := W2_arr m ρ c 3

/-- The second region's output array at its exit. -/
theorem W4_v105 : W4 m ρ c (Proc.devRef .tc main_v105) = (dat1 (V3 m ρ) c).arrAt 3 cfg1.N := W4_arr m ρ c 3

end Cert.Bridge

end
-- ==== Proof.HostChunks.lean ====
/-
  The first stretch of host operations cut in three: its first 17 operations, through the two projected
  edge-feature arrays; the next 34, through the node features set side by side; and the last 38, through the
  first layer's aggregated features and the bias row. The stretch is their concatenation, so its fold is the
  three folds in turn.
-/
import proofs.«110293_j1056561954976_2_alg».proof.Proof.Gen.KernelIdeal.Launch
import proofs.«110293_j1056561954976_2_alg».proof.Proof.FoldRead
import Idealize.ShloMosaic.Lib.Pipeline.Frame

set_option maxRecDepth 16384

noncomputable section

namespace Cert.Bridge

open Cert.KernelIdeal Cert.KernelIdeal.Gen
open Idealize.ShloMosaic Idealize.ShloMosaic.TcCoe Idealize.SL.Sem

variable {F : FTy → Type} [FloatOps F]

/-- The operations through the projected relation table looked up by edge type and cut in two. -/
abbrev opsA : List (HloOp τ sig (Elt F)) := (hostOps0 (F := F)).take 17

/-- The two mean aggregations over the edges and the node features set side by side. -/
abbrev opsB : List (HloOp τ sig (Elt F)) := ((hostOps0 (F := F)).drop 17).take 34

/-- The degree scalings, the lookup by source node and the segment sum of the first graph convolution, and the bias row. -/
abbrev opsC : List (HloOp τ sig (Elt F)) := (hostOps0 (F := F)).drop 51

set_option maxHeartbeats 4000000 in
/-- The first stretch is the three pieces in order. -/
theorem hostOps0_split : (hostOps0 : List (HloOp τ sig (Elt F))) = opsA ++ (opsB ++ opsC) := rfl

/-- So its fold is the three folds in turn. -/
theorem after_hostOps0 (W : Valuation τ sig (Elt F)) :
    StableHlo.after hostOps0 W = StableHlo.after opsC (StableHlo.after opsB (StableHlo.after opsA W)) := by
  rw [hostOps0_split, StableHlo.after_append, StableHlo.after_append]

end Cert.Bridge

/-- Reads the fold of one of the three pieces at a buffer: the piece is first written out as the list it is. -/
macro "piece_read" : tactic =>
  `(tactic| (simp only [Cert.Bridge.opsA, Cert.Bridge.opsB, Cert.Bridge.opsC, Cert.KernelIdeal.Gen.hostOps0,
                List.drop_succ_cons, List.drop_zero, List.take_succ_cons, List.take_zero]
             fold_read))

end
-- ==== Proof.LibRowGatherScatter.lean ====
/-
  A gather of rows and an accumulating scatter of rows, read at an entry.

  `x[rows]` for a matrix `x : [N, C]` and row numbers `rows : [R, 1]` lowers to a gather whose result
  `[R, C]` holds, at `(e, c)`, the entry `(ρ e, c)` of `x`, where `ρ e` is the row number `rows[e, 0]`
  read as a signed integer and clamped into `[0, N − 1]`: the column is kept, the row is looked up.

  `segment_sum(upd, rows)` for updates `upd : [R, C]` lowers to an accumulating scatter into `[N, C]`:
  update `(e, c)` lands on entry `(rows[e, 0], c)` when that row number, read signed and NOT clamped,
  lies in `[0, N)`, and is dropped otherwise. So entry `(v, k)` of the result is the operand's entry plus
  the sum, over the update rows `e` whose row number is `v`, of `upd (e, k)`.
-/
import Idealize.ShloMosaic.Lib.ValueIdx
import Idealize.ShloMosaic.PureOps.Ideal
import Idealize.ShloMosaic.PureOps.Ideal.Laws

noncomputable section

namespace RowOps

open Idealize.ShloMosaic Idealize.ShloMosaic.ValueIdx

/-- The entry `[e, 0]` of a column of `R` row numbers. -/
abbrev col0 {R : Nat} (e : Fin R) : (⟨2, ![R, 1]⟩ : Shape).Idx := ix2 e (⟨0, Nat.one_pos⟩ : Fin 1)

/-! ## Rows gathered -/

section Gather
variable {α : Type}

/-- The dimension numbers of `x[rows]`: operand `[N, C]`, start indices `[R, 1]`, result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of the operand that result row `e` reads: its row number read signed, clamped into `[0, N − 1]`. -/
def gatheredRow {N R w : Nat} (hN : 0 < N) (idx : IVec ⟨2, ![R, 1]⟩ w) (e : Fin R) : Fin N :=
  ⟨min (idx (col0 e)).toInt.toNat (N - 1), by omega⟩

/-- THE ROW GATHER READ AT `(e, c)`: entry `c` of the looked-up row. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (gatheredRow hN idx e) c) := by
  unfold Host.gather
  congr 1
  have h0 : ((rowGatherDims N R C wf).operandIdx (ix2 e c) idx (0 : Fin 2)).val = (gatheredRow hN idx e).val := by
    show (rowGatherDims N R C wf).start (ix2 e c) idx (0 : Fin 2) + (rowGatherDims N R C wf).batchCoord (ix2 e c) (0 : Fin 2)
        + (rowGatherDims N R C wf).offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = col0 e := by
      funext b; refine Fin.ext ?_
      match b with
      | ⟨0, _⟩ => rfl
      | ⟨1, _⟩ => rfl
    rw [hsi]
    rfl
  have h1 : ((rowGatherDims N R C wf).operandIdx (ix2 e c) idx (1 : Fin 2)).val = c.val := by
    show (rowGatherDims N R C wf).start (ix2 e c) idx (1 : Fin 2) + (rowGatherDims N R C wf).batchCoord (ix2 e c) (1 : Fin 2)
        + (rowGatherDims N R C wf).offCoord (ix2 e c) (1 : Fin 2) = _
    rw [GatherDims.batchCoord_eq_zero _ _ _ List.not_mem_nil, Nat.add_zero]
    have hn : (1 : Fin 2) ∉ (rowGatherDims N R C wf).startIndexMap := fun h =>
      absurd (List.mem_singleton.mp h) (by decide : ¬ (1 : Fin 2) = 0)
    have hk : (1 : Fin 2) ∈ (rowGatherDims N R C wf).sKept :=
      (GatherDims.mem_sKept _ _).mpr ⟨fun h => absurd (List.mem_singleton.mp h) (by decide : ¬ (1 : Fin 2) = 0),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

end Gather

/-! ## Rows scattered and accumulated -/

section Scatter

/-- The dimension numbers of `segment_sum` over rows: operand `[N, C]`, scatter indices `[R, 1]`, updates `[R, C]`. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window of update `(e, c)` starts at its row number, read signed. -/
theorem start_row (e : Fin R) (c : Fin C) :
    (rowScatterDims N R C wf).start (ix2 e c) idx (0 : Fin 2) = (idx (col0 e)).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- On the column axis it starts at zero. -/
theorem start_col (e : Fin R) (c : Fin C) : (rowScatterDims N R C wf).start (ix2 e c) idx (1 : Fin 2) = 0 := by
  unfold ScatterDims.start
  rw [dif_neg (fun h => absurd (List.mem_singleton.mp h) (by decide : ¬ (1 : Fin 2) = 0))]

/-- The row axis is inserted: the window has no extent there. -/
theorem window_row (e : Fin R) (c : Fin C) : (rowScatterDims N R C wf).window (ix2 e c) (0 : Fin 2) = 0 := by
  unfold ScatterDims.window
  rw [dif_neg]
  intro h
  exact (List.mem_filter.mp h).2 |> fun h' => by simp at h'

/-- On the column axis the window coordinate is the update's column. -/
theorem window_col (e : Fin R) (c : Fin C) : (rowScatterDims N R C wf).window (ix2 e c) (1 : Fin 2) = c.val := by
  unfold ScatterDims.window
  rw [dif_pos (show (1 : Fin 2) ∈ (rowScatterDims N R C wf).sKept from
    List.mem_filter.mpr ⟨List.mem_finRange _, by simp⟩)]
  rfl

/-- WHERE UPDATE `(e, c)` LANDS: on `(v, k)` exactly when its row number is `v` and its column is `k`. -/
theorem resultIdx?_rows (e : Fin R) (c : Fin C) (v : Fin N) (k : Fin C) :
    (rowScatterDims N R C wf).resultIdx? (ix2 e c) idx = some (ix2 v k)
      ↔ (idx (col0 e)).toInt = (v.val : Int) ∧ c = k := by
  have hs0 := start_row wf idx e c
  have hs1 := start_col wf idx e c
  have hw0 := window_row wf e c
  have hw1 := window_col wf e c
  unfold ScatterDims.resultIdx?
  split
  · rename_i h
    rw [Option.some.injEq]
    constructor
    · intro hf
      have h0 := congrArg Fin.val (congrFun hf (0 : Fin 2))
      have h1 := congrArg Fin.val (congrFun hf (1 : Fin 2))
      have hp := (h (0 : Fin 2)).1
      simp only [hs0, hw0, hs1, hw1] at h0 h1 hp
      refine ⟨?_, Fin.ext ?_⟩
      · have : ((idx (col0 e)).toInt + ((0 : Nat) : Int)).toNat = v.val := h0
        omega
      · have : ((0 : Int) + (c.val : Int)).toNat = k.val := h1
        omega
    · rintro ⟨hv, rfl⟩
      funext a
      refine Fin.ext ?_
      match a with
      | ⟨0, _⟩ =>
        show ((rowScatterDims N R C wf).start (ix2 e c) idx (0 : Fin 2)
          + ((rowScatterDims N R C wf).window (ix2 e c) (0 : Fin 2) : Int)).toNat = v.val
        rw [hs0, hw0, hv]; simp
      | ⟨1, _⟩ =>
        show ((rowScatterDims N R C wf).start (ix2 e c) idx (1 : Fin 2)
          + ((rowScatterDims N R C wf).window (ix2 e c) (1 : Fin 2) : Int)).toNat = c.val
        rw [hs1, hw1]; simp
  · rename_i h
    constructor
    · intro hf; cases hf
    · rintro ⟨hv, rfl⟩
      refine (h fun a => ?_).elim
      match a with
      | ⟨0, _⟩ =>
        show 0 ≤ (rowScatterDims N R C wf).start (ix2 e c) idx (0 : Fin 2)
            + ((rowScatterDims N R C wf).window (ix2 e c) (0 : Fin 2) : Int)
          ∧ (rowScatterDims N R C wf).start (ix2 e c) idx (0 : Fin 2)
            + ((rowScatterDims N R C wf).window (ix2 e c) (0 : Fin 2) : Int) < (N : Int)
        rw [hs0, hw0, hv]
        have := v.isLt
        omega
      | ⟨1, _⟩ =>
        show 0 ≤ (rowScatterDims N R C wf).start (ix2 e c) idx (1 : Fin 2)
            + ((rowScatterDims N R C wf).window (ix2 e c) (1 : Fin 2) : Int)
          ∧ (rowScatterDims N R C wf).start (ix2 e c) idx (1 : Fin 2)
            + ((rowScatterDims N R C wf).window (ix2 e c) (1 : Fin 2) : Int) < (C : Int)
        rw [hs1, hw1]
        have := c.isLt
        omega

/-- The update rows whose row number is `v`. -/
def rowsOnto (v : Fin N) : Finset (Fin R) := Finset.univ.filter fun e => (idx (col0 e)).toInt = (v.val : Int)

/-- THE ROW SCATTER READ AT `(v, k)`, at the ideal instance: the operand's entry plus the sum, over the update
    rows whose row number is `v`, of their entry in column `k`. -/
theorem scatterAdd_rows_apply {φ : FTy} (x : FVec Ideal ⟨2, ![N, C]⟩ φ) (upd : FVec Ideal ⟨2, ![R, C]⟩ φ)
    (v : Fin N) (k : Fin C) :
    Host.scatterAdd (rowScatterDims N R C wf) x idx upd (ix2 v k)
      = x (ix2 v k) + ∑ e ∈ rowsOnto idx v, upd (ix2 e k) := by
  show Ideal.hostScatterAdd (rowScatterDims N R C wf) x idx upd (ix2 v k) = _
  unfold Ideal.hostScatterAdd rowsOnto
  congr 1
  rw [Finset.sum_filter, sum_idx2, Finset.sum_filter]
  refine Finset.sum_congr rfl fun e _ => ?_
  simp only [resultIdx?_rows wf idx e _ v k]
  by_cases hv : (idx (col0 e)).toInt = (v.val : Int)
  · simp only [hv, true_and, if_true]
    rw [Finset.sum_ite_eq' Finset.univ k fun c => upd (ix2 e c)]
    simp
  · simp only [hv, false_and, if_false]
    exact Finset.sum_const_zero

end Scatter

end RowOps

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.ProjGather.lean ====
/-
  The relation projection commutes with the lookup by edge type.
  The kernel program projects the 500-row relation table once — its product with the two 32x32 weight matrices
  set side by side, plus the two biases set end to end — and then looks up the row of each edge's type, taking
  the first 32 columns for the outgoing features and the last 32 for the incoming ones. The reference looks the
  row up first and multiplies each looked-up row by one weight matrix. Entry (e, j) of either is
  sum over k of table(row of e, k) * W(k, j) + b(j): the lookup only selects a row, which the product keeps.
-/
import proofs.«110293_j1056561954976_2_alg».proof.Proof.Gen.KernelIdeal.Launch
import proofs.«110293_j1056561954976_2_alg».proof.Proof.Gen.ReferenceIdeal.Read
import proofs.«110293_j1056561954976_2_alg».proof.Proof.LibRowGatherScatter
import proofs.«110293_j1056561954976_2_alg».proof.Proof.LibPlainDot
import proofs.«110293_j1056561954976_2_alg».proof.Proof.LibBroadcastInDim
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

/-- A slice of 32 columns, starting at column 0, of the rows gathered from a 64-column table: entry (e, j) is
    the table's entry (row looked up for e, column j). -/
theorem slice_gather_lo (P : S500x64.Idx → EReal) (idx : IVec S2000000x1 32) (e : Fin 2000000) (j : Fin 32) :
    extractStridedSlice S2000000x32 ![0, 0] (Host.gather gather_S500x64_S2000000x1_S2000000x64_1_0_n_n_0_1_164 P idx)
        slices_S2000000x64_S2000000x32_0_0 (ix2 e j)
      = P (ix2 (RowOps.gatheredRow (N := 500) (by decide) idx e) (⟨j.val, by omega⟩ : Fin 64)) := by
  rw [extractStridedSlice_apply ![0, 0] _ slices_S2000000x64_S2000000x32_0_0 (ix2 e j) (ix2 e (⟨j.val, by omega⟩ : Fin 64))
    (fun a => match a with | ⟨0, _⟩ => by simp | ⟨1, _⟩ => by simp)]
  exact RowOps.gather_rows_apply (N := 500) (R := 2000000) (C := 64) (by decide) _ P idx e _

/-- The same slice starting at column 32: entry (e, j) is the table's entry (row looked up for e, column 32 + j). -/
theorem slice_gather_hi (P : S500x64.Idx → EReal) (idx : IVec S2000000x1 32) (e : Fin 2000000) (j : Fin 32) :
    extractStridedSlice S2000000x32 ![0, 32] (Host.gather gather_S500x64_S2000000x1_S2000000x64_1_0_n_n_0_1_164 P idx)
        slices_S2000000x64_S2000000x32_0_32 (ix2 e j)
      = P (ix2 (RowOps.gatheredRow (N := 500) (by decide) idx e) (⟨32 + j.val, by omega⟩ : Fin 64)) := by
  rw [extractStridedSlice_apply ![0, 32] _ slices_S2000000x64_S2000000x32_0_32 (ix2 e j) (ix2 e (⟨32 + j.val, by omega⟩ : Fin 64))
    (fun a => match a with | ⟨0, _⟩ => by simp | ⟨1, _⟩ => by simp)]
  exact RowOps.gather_rows_apply (N := 500) (R := 2000000) (C := 64) (by decide) _ P idx e _

/-- The projected relation table, entry (r, j) for a column j of the FIRST half: the matrix product with the two
    weight matrices set side by side reads the first one there, and the two biases set end to end the first. -/
theorem proj_lo (x9 : FVec Ideal S500x32 .f32) (x10 x12 : FVec Ideal S32x32 .f32) (x11 x13 : FVec Ideal S32 .f32) (r : Fin 500) (j : Fin 32) :
    (addf (F := Ideal) (φ := .f32) (Host.dotGeneral (φ₁ := .f32) (φ₂ := .f32) dot_S500x32_S32x64_S500x64_1_0_0_1_n_n none x9
            (concatenate S32x64 1 [⟨S32x32, x10⟩, ⟨S32x32, x12⟩] concatenates_S32x32_S32x32_S32x64_d1))
          (broadcastInDim S500x64 ![0, 1] bcast_S1x64_S500x64_0_1
            (broadcastInDim S1x64 ![1] bcast_S64_S1x64_1
              (concatenate S64 0 [⟨S32, x11⟩, ⟨S32, x13⟩] concatenates_S32_S32_S64_d0))))
        (ix2 r (⟨j.val, by omega⟩ : Fin 64))
      = ∑ k : Fin 32, x9 (ix2 r k) * x10 (ix2 k j) + x11 (ix1 j) := by
  rw [addf_apply]
  congr 1
  · refine (dotGeneral_plain_apply dot_S500x32_S32x64_S500x64_1_0_0_1_n_n rfl none .single x9 _ r _).trans ?_
    refine Finset.sum_congr rfl fun k _ => ?_
    congr 1
    exact concatenate_pair_apply_left 1 x10 x12 concatenates_S32x32_S32x32_S32x64_d1 (ix2 k (⟨j.val, by omega⟩ : Fin 64)) rfl (ix2 k j)
      (fun b => match b with | ⟨0, _⟩ => rfl | ⟨1, _⟩ => rfl)
  · rw [broadcastInDim_1b_ab_apply, broadcastInDim_b_1b_apply]
    exact concatenate_pair_apply_left 0 x11 x13 concatenates_S32_S32_S64_d0 (ix1 (⟨j.val, by omega⟩ : Fin 64)) rfl (ix1 j)
      (fun b => match b with | ⟨0, _⟩ => rfl)

/-- The same for a column 32 + j of the SECOND half: the second weight matrix and the second bias. -/
theorem proj_hi (x9 : FVec Ideal S500x32 .f32) (x10 x12 : FVec Ideal S32x32 .f32) (x11 x13 : FVec Ideal S32 .f32) (r : Fin 500) (j : Fin 32) :
    (addf (F := Ideal) (φ := .f32) (Host.dotGeneral (φ₁ := .f32) (φ₂ := .f32) dot_S500x32_S32x64_S500x64_1_0_0_1_n_n none x9
            (concatenate S32x64 1 [⟨S32x32, x10⟩, ⟨S32x32, x12⟩] concatenates_S32x32_S32x32_S32x64_d1))
          (broadcastInDim S500x64 ![0, 1] bcast_S1x64_S500x64_0_1
            (broadcastInDim S1x64 ![1] bcast_S64_S1x64_1
              (concatenate S64 0 [⟨S32, x11⟩, ⟨S32, x13⟩] concatenates_S32_S32_S64_d0))))
        (ix2 r (⟨32 + j.val, by omega⟩ : Fin 64))
      = ∑ k : Fin 32, x9 (ix2 r k) * x12 (ix2 k j) + x13 (ix1 j) := by
  rw [addf_apply]
  congr 1
  · refine (dotGeneral_plain_apply dot_S500x32_S32x64_S500x64_1_0_0_1_n_n rfl none .single x9 _ r _).trans ?_
    refine Finset.sum_congr rfl fun k _ => ?_
    congr 1
    exact concatenate_pair_apply_right 1 x10 x12 concatenates_S32x32_S32x32_S32x64_d1 (ix2 k (⟨32 + j.val, by omega⟩ : Fin 64)) rfl rfl (ix2 k j)
      (fun b => match b with | ⟨0, _⟩ => fun _ => rfl | ⟨1, _⟩ => fun h => absurd rfl h) (by show j.val + 32 = 32 + j.val; omega)
  · rw [broadcastInDim_1b_ab_apply, broadcastInDim_b_1b_apply]
    exact concatenate_pair_apply_right 0 x11 x13 concatenates_S32_S32_S64_d0 (ix1 (⟨32 + j.val, by omega⟩ : Fin 64)) rfl rfl (ix1 j)
      (fun b => match b with | ⟨0, _⟩ => fun h => absurd rfl h) (by show j.val + 32 = 32 + j.val; omega)

theorem ref_proj_out (x0 : (⟨Cert.ReferenceIdeal.S2000000, .i32⟩ : BufTy).Contents (Elt Ideal)) (x9 : FVec Ideal Cert.ReferenceIdeal.S500x32 .f32)
    (x10 : FVec Ideal Cert.ReferenceIdeal.S32x32 .f32) (x11 : FVec Ideal Cert.ReferenceIdeal.S32 .f32) (e : Fin 2000000) (j : Fin 32) :
    Cert.ReferenceIdeal.Read.val_main_v10 (F := Ideal) x0 x9 x10 x11 (ix2 e j)
      = ∑ k : Fin 32, x9 (ix2 (RowOps.gatheredRow (N := 500) (by decide) (Cert.ReferenceIdeal.Read.val_main_v5 (F := Ideal) x0) e) k) * x10 (ix2 k j) + x11 (ix1 j) := by
  rw [Cert.ReferenceIdeal.Read.val_main_v10_apply, Cert.ReferenceIdeal.Read.val_main_v7_apply, Cert.ReferenceIdeal.Read.val_main_v9_apply, Cert.ReferenceIdeal.Read.val_main_v8_apply]
  have hl : ∀ k : Fin 32, Cert.ReferenceIdeal.Read.lidx_main_v7 (ix2 e j) k = ix2 e k := fun k => funext fun a => by
    match a with | ⟨0, _⟩ => rfl | ⟨1, _⟩ => rfl
  have hr : ∀ k : Fin 32, Cert.ReferenceIdeal.Read.ridx_main_v7 (ix2 e j) k = ix2 k j := fun k => funext fun a => by
    match a with | ⟨0, _⟩ => rfl | ⟨1, _⟩ => rfl
  have hb : Cert.ReferenceIdeal.Read.idx_main_v8 (Cert.ReferenceIdeal.Read.idx_main_v9 (ix2 e j)) = ix1 j := funext fun a => by
    match a with | ⟨0, _⟩ => rfl
  simp only [hl, hr, hb]
  show _ + _ = _
  congr 1
  refine Finset.sum_congr rfl fun k _ => ?_
  congr 1
  unfold Cert.ReferenceIdeal.Read.val_main_v6
  exact RowOps.gather_rows_apply (N := 500) (R := 2000000) (C := 32) (by decide) _ x9 _ e k

theorem ref_proj_in (x0 : (⟨Cert.ReferenceIdeal.S2000000, .i32⟩ : BufTy).Contents (Elt Ideal)) (x9 : FVec Ideal Cert.ReferenceIdeal.S500x32 .f32)
    (x12 : FVec Ideal Cert.ReferenceIdeal.S32x32 .f32) (x13 : FVec Ideal Cert.ReferenceIdeal.S32 .f32) (e : Fin 2000000) (j : Fin 32) :
    Cert.ReferenceIdeal.Read.val_main_v26 (F := Ideal) x0 x9 x12 x13 (ix2 e j)
      = ∑ k : Fin 32, x9 (ix2 (RowOps.gatheredRow (N := 500) (by decide) (Cert.ReferenceIdeal.Read.val_main_v5 (F := Ideal) x0) e) k) * x12 (ix2 k j) + x13 (ix1 j) := by
  rw [Cert.ReferenceIdeal.Read.val_main_v26_apply, Cert.ReferenceIdeal.Read.val_main_v23_apply, Cert.ReferenceIdeal.Read.val_main_v25_apply, Cert.ReferenceIdeal.Read.val_main_v24_apply]
  have hl : ∀ k : Fin 32, Cert.ReferenceIdeal.Read.lidx_main_v23 (ix2 e j) k = ix2 e k := fun k => funext fun a => by
    match a with | ⟨0, _⟩ => rfl | ⟨1, _⟩ => rfl
  have hr : ∀ k : Fin 32, Cert.ReferenceIdeal.Read.ridx_main_v23 (ix2 e j) k = ix2 k j := fun k => funext fun a => by
    match a with | ⟨0, _⟩ => rfl | ⟨1, _⟩ => rfl
  have hb : Cert.ReferenceIdeal.Read.idx_main_v24 (Cert.ReferenceIdeal.Read.idx_main_v25 (ix2 e j)) = ix1 j := funext fun a => by
    match a with | ⟨0, _⟩ => rfl
  simp only [hl, hr, hb]
  show _ + _ = _
  congr 1
  refine Finset.sum_congr rfl fun k _ => ?_
  congr 1
  unfold Cert.ReferenceIdeal.Read.val_main_v6
  exact RowOps.gather_rows_apply (N := 500) (R := 2000000) (C := 32) (by decide) _ x9 _ e k

end Cert.Bridge

end
-- ==== Proof.EdgeFeatures.lean ====
/-
  The two projected edge-feature arrays of the kernel program are the reference's.
  Read at the buffers of the first piece of the first stretch of host operations: the first 32 columns of the
  looked-up projected table are the reference's outgoing edge features, the last 32 its incoming ones. The piece
  writes no argument array.
-/
import proofs.«110293_j1056561954976_2_alg».proof.Proof.Gen.KernelIdeal.Launch
import proofs.«110293_j1056561954976_2_alg».proof.Proof.Gen.ReferenceIdeal.Read
import proofs.«110293_j1056561954976_2_alg».proof.Proof.FoldRead
import proofs.«110293_j1056561954976_2_alg».proof.Proof.HostChunks
import proofs.«110293_j1056561954976_2_alg».proof.Proof.ProjGather
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

variable (W : Valuation τ sig (Elt Ideal))

/-- The outgoing edge features. -/
theorem out_feat_eq :
    StableHlo.after (opsA (F := Ideal)) W (Proc.devRef .tc main_v13)
      = Cert.ReferenceIdeal.Read.val_main_v10 (F := Ideal) (W (Proc.devRef .tc main_arg0)) (W (Proc.devRef .tc main_arg9)) (W (Proc.devRef .tc main_arg10)) (W (Proc.devRef .tc main_arg11)) := by
  piece_read
  funext i
  obtain ⟨e, j, rfl⟩ : ∃ (e : Fin 2000000) (j : Fin 32), i = ix2 e j := ⟨i 0, i 1, eq_ix2 i⟩
  rw [slice_gather_lo, proj_lo, ref_proj_out]
  rfl

/-- The incoming edge features. -/
theorem in_feat_eq :
    StableHlo.after (opsA (F := Ideal)) W (Proc.devRef .tc main_v14)
      = Cert.ReferenceIdeal.Read.val_main_v26 (F := Ideal) (W (Proc.devRef .tc main_arg0)) (W (Proc.devRef .tc main_arg9)) (W (Proc.devRef .tc main_arg12)) (W (Proc.devRef .tc main_arg13)) := by
  piece_read
  funext i
  obtain ⟨e, j, rfl⟩ : ∃ (e : Fin 2000000) (j : Fin 32), i = ix2 e j := ⟨i 0, i 1, eq_ix2 i⟩
  rw [slice_gather_hi, proj_hi, ref_proj_in]
  rfl

theorem opsA_arg1 : StableHlo.after (opsA (F := Ideal)) W (Proc.devRef .tc main_arg1) = W (Proc.devRef .tc main_arg1) := by
  piece_read
  try rfl

theorem opsA_arg2 : StableHlo.after (opsA (F := Ideal)) W (Proc.devRef .tc main_arg2) = W (Proc.devRef .tc main_arg2) := by
  piece_read
  try rfl

theorem opsA_arg3 : StableHlo.after (opsA (F := Ideal)) W (Proc.devRef .tc main_arg3) = W (Proc.devRef .tc main_arg3) := by
  piece_read
  try rfl

theorem opsA_arg4 : StableHlo.after (opsA (F := Ideal)) W (Proc.devRef .tc main_arg4) = W (Proc.devRef .tc main_arg4) := by
  piece_read
  try rfl

theorem opsA_arg15 : StableHlo.after (opsA (F := Ideal)) W (Proc.devRef .tc main_arg15) = W (Proc.devRef .tc main_arg15) := by
  piece_read
  try rfl

end Cert.Bridge

end
-- ==== Proof.NodeLayout.lean ====
/-
  Two arrangements of the node features are one array.
  The kernel program keeps the first 150000 rows of the outgoing means [200000, 32] and sets the incoming means
  [150000, 32] beside them. The reference pads the incoming means with 50000 rows to [200000, 32], sets the two
  [200000, 32] arrays side by side and keeps the first 150000 rows. Entry (p, q) of either is the outgoing mean
  (p, q) for q < 32 and the incoming mean (p, q - 32) otherwise: a kept row p < 150000 lies inside the padded array.
-/
import proofs.«110293_j1056561954976_2_alg».proof.Proof.Gen.KernelIdeal
import Idealize.ShloMosaic.Lib.Pipeline.Value
import Idealize.ShloMosaic.Lib.ValueIdx
import Idealize.ShloMosaic.Lib.KernelVsHost
import Idealize.ShloMosaic.PureOps.Ideal

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

/-- The reference's two [200000, 32] arrays side by side. -/
abbrev T200000x64 : Shape := ⟨2, ![200000, 64]⟩

theorem side_by_side (A : FVec Ideal S200000x32 .f32) (B : FVec Ideal S150000x32 .f32) {u : Shape} (v : u.Idx → EReal)
    (hs : S200000x32.Slices ![0, 0] S150000x32) (hc : Shape.Concatenates [S150000x32, S150000x32] S150000x64 1)
    (hp : S150000x32.Pads ![0, 0] ![50000, 0] ![0, 0] S200000x32) (hu : 0 < u.numel)
    (hc' : Shape.Concatenates [S200000x32, S200000x32] T200000x64 1) (hs' : T200000x64.Slices ![0, 0] S150000x64) :
    (concatenate S150000x64 1 [⟨S150000x32, extractStridedSlice S150000x32 ![0, 0] A hs⟩, ⟨S150000x32, B⟩] hc : S150000x64.Idx → EReal)
      = extractStridedSlice S150000x64 ![0, 0]
          (concatenate T200000x64 1 [⟨S200000x32, A⟩, ⟨S200000x32, pad S200000x32 ![0, 0] ![50000, 0] ![0, 0] B v hp hu⟩] hc') hs' := by
  funext i
  obtain ⟨p, q, rfl⟩ : ∃ (p : Fin 150000) (q : Fin 64), i = ix2 p q := ⟨i 0, i 1, eq_ix2 i⟩
  have hp200 : p.val < 200000 := by have := p.isLt; omega
  rw [extractStridedSlice_apply ![0, 0] _ hs' (ix2 p q) (ix2 (⟨p.val, hp200⟩ : Fin 200000) q)
    (fun a => match a with | ⟨0, _⟩ => by simp | ⟨1, _⟩ => by simp)]
  by_cases hq : q.val < 32
  · rw [concatenate_pair_apply_left 1 _ B hc (ix2 p q) rfl (ix2 p (⟨q.val, hq⟩ : Fin 32))
        (fun b => match b with | ⟨0, _⟩ => rfl | ⟨1, _⟩ => rfl),
      extractStridedSlice_apply ![0, 0] A hs (ix2 p (⟨q.val, hq⟩ : Fin 32)) (ix2 (⟨p.val, hp200⟩ : Fin 200000) (⟨q.val, hq⟩ : Fin 32))
        (fun a => match a with | ⟨0, _⟩ => by simp | ⟨1, _⟩ => by simp),
      concatenate_pair_apply_left 1 A _ hc' (ix2 (⟨p.val, hp200⟩ : Fin 200000) q) rfl (ix2 (⟨p.val, hp200⟩ : Fin 200000) (⟨q.val, hq⟩ : Fin 32))
        (fun b => match b with | ⟨0, _⟩ => rfl | ⟨1, _⟩ => rfl)]
  · have hq' : q.val - 32 < 32 := by have := q.isLt; omega
    rw [concatenate_pair_apply_right 1 _ B hc (ix2 p q) rfl rfl (ix2 p (⟨q.val - 32, hq'⟩ : Fin 32))
        (fun b => match b with | ⟨0, _⟩ => fun _ => rfl | ⟨1, _⟩ => fun h => absurd rfl h)
        (by show q.val - 32 + 32 = q.val; omega),
      concatenate_pair_apply_right 1 A _ hc' (ix2 (⟨p.val, hp200⟩ : Fin 200000) q) rfl rfl (ix2 (⟨p.val, hp200⟩ : Fin 200000) (⟨q.val - 32, hq'⟩ : Fin 32))
        (fun b => match b with | ⟨0, _⟩ => fun _ => rfl | ⟨1, _⟩ => fun h => absurd rfl h)
        (by show q.val - 32 + 32 = q.val; omega),
      pad_apply_of_inside ![0, 0] ![50000, 0] ![0, 0] B v hp hu (ix2 (⟨p.val, hp200⟩ : Fin 200000) (⟨q.val - 32, hq'⟩ : Fin 32)) (ix2 p (⟨q.val - 32, hq'⟩ : Fin 32))
        (fun a => match a with | ⟨0, _⟩ => by simp | ⟨1, _⟩ => by simp)]

end Cert.Bridge

end
-- ==== Proof.NodeFeatures.lean ====
/-
  The node features the first graph convolution starts from are the reference's.
  Past the edge features both programs apply the same operations — the segment sums over the edges' source
  (resp. destination) nodes, the degrees clamped below at one, the quotients — so equal edge features give equal
  means; the two arrangements of the means side by side are one array.
-/
import proofs.«110293_j1056561954976_2_alg».proof.Proof.Gen.KernelIdeal.Launch
import proofs.«110293_j1056561954976_2_alg».proof.Proof.Gen.ReferenceIdeal.Read
import proofs.«110293_j1056561954976_2_alg».proof.Proof.FoldRead
import proofs.«110293_j1056561954976_2_alg».proof.Proof.HostChunks
import proofs.«110293_j1056561954976_2_alg».proof.Proof.NodeLayout
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

variable (W : Valuation τ sig (Elt Ideal))

set_option maxHeartbeats 4000000 in
theorem node_feat_eq (a0 : (⟨Cert.ReferenceIdeal.S2000000, .i32⟩ : BufTy).Contents (Elt Ideal)) (a1 : (⟨Cert.ReferenceIdeal.S2000000, .i32⟩ : BufTy).Contents (Elt Ideal)) (a2 : (⟨Cert.ReferenceIdeal.S2000000, .i32⟩ : BufTy).Contents (Elt Ideal)) (a9 : FVec Ideal Cert.ReferenceIdeal.S500x32 .f32) (a10 : FVec Ideal Cert.ReferenceIdeal.S32x32 .f32) (a11 : FVec Ideal Cert.ReferenceIdeal.S32 .f32) (a12 : FVec Ideal Cert.ReferenceIdeal.S32x32 .f32) (a13 : FVec Ideal Cert.ReferenceIdeal.S32 .f32)
    (h13 : W (Proc.devRef .tc main_v13) = Cert.ReferenceIdeal.Read.val_main_v10 (F := Ideal) (a0) (a9) (a10) (a11))
    (h14 : W (Proc.devRef .tc main_v14) = Cert.ReferenceIdeal.Read.val_main_v26 (F := Ideal) (a0) (a9) (a12) (a13))
    (h1 : W (Proc.devRef .tc main_arg1) = a1) (h2 : W (Proc.devRef .tc main_arg2) = a2) :
    StableHlo.after (opsB (F := Ideal)) W (Proc.devRef .tc main_v40)
      = Cert.ReferenceIdeal.Read.val_main_v41 (F := Ideal) (a0) (a1) (a2) (a9) (a10) (a11) (a12) (a13) := by
  piece_read
  rw [h13, h14, h1, h2]
  unfold Cert.ReferenceIdeal.Read.val_main_v41 Cert.ReferenceIdeal.Read.val_main_v40 Cert.ReferenceIdeal.Read.val_main_v39
  exact side_by_side (Cert.ReferenceIdeal.Read.val_main_v22 (F := Ideal) (a0) (a1) (a9) (a10) (a11)) (Cert.ReferenceIdeal.Read.val_main_v38 (F := Ideal) (a0) (a2) (a9) (a12) (a13)) _ _ _ _ _ _ _

theorem opsB_arg3 : StableHlo.after (opsB (F := Ideal)) W (Proc.devRef .tc main_arg3) = W (Proc.devRef .tc main_arg3) := by
  piece_read
  try rfl

theorem opsB_arg4 : StableHlo.after (opsB (F := Ideal)) W (Proc.devRef .tc main_arg4) = W (Proc.devRef .tc main_arg4) := by
  piece_read
  try rfl

theorem opsB_arg15 : StableHlo.after (opsB (F := Ideal)) W (Proc.devRef .tc main_arg15) = W (Proc.devRef .tc main_arg15) := by
  piece_read
  try rfl

end Cert.Bridge

end
-- ==== Proof.AggStage.lean ====
/-
  The aggregated features the first matmul region starts from are the reference's, and the bias row is the bias.
  Past the node features both programs apply the same operations — the out- and in-degrees clamped below at one,
  their inverse square roots, the scaling by the source node's, the lookup of each edge's source row, the segment
  sum over the edges' destination nodes, the scaling by the destination node's — so equal node features give equal
  aggregated features.
-/
import proofs.«110293_j1056561954976_2_alg».proof.Proof.Gen.KernelIdeal.Launch
import proofs.«110293_j1056561954976_2_alg».proof.Proof.Gen.ReferenceIdeal.Read
import proofs.«110293_j1056561954976_2_alg».proof.Proof.FoldRead
import proofs.«110293_j1056561954976_2_alg».proof.Proof.HostChunks
import Idealize.ShloMosaic.Lib.StableHlo.Run
import Idealize.ShloMosaic.Lib.Pipeline.Value
import Idealize.ShloMosaic.Lib.ValueLayout

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

variable (W : Valuation τ sig (Elt Ideal))

theorem agg1_eq (a0 : (⟨Cert.ReferenceIdeal.S2000000, .i32⟩ : BufTy).Contents (Elt Ideal)) (a1 : (⟨Cert.ReferenceIdeal.S2000000, .i32⟩ : BufTy).Contents (Elt Ideal)) (a2 : (⟨Cert.ReferenceIdeal.S2000000, .i32⟩ : BufTy).Contents (Elt Ideal)) (a3 : (⟨Cert.ReferenceIdeal.S1000000, .i32⟩ : BufTy).Contents (Elt Ideal)) (a4 : (⟨Cert.ReferenceIdeal.S1000000, .i32⟩ : BufTy).Contents (Elt Ideal)) (a9 : FVec Ideal Cert.ReferenceIdeal.S500x32 .f32) (a10 : FVec Ideal Cert.ReferenceIdeal.S32x32 .f32) (a11 : FVec Ideal Cert.ReferenceIdeal.S32 .f32) (a12 : FVec Ideal Cert.ReferenceIdeal.S32x32 .f32) (a13 : FVec Ideal Cert.ReferenceIdeal.S32 .f32)
    (h40 : W (Proc.devRef .tc main_v40) = Cert.ReferenceIdeal.Read.val_main_v41 (F := Ideal) (a0) (a1) (a2) (a9) (a10) (a11) (a12) (a13))
    (h3 : W (Proc.devRef .tc main_arg3) = a3) (h4 : W (Proc.devRef .tc main_arg4) = a4) :
    StableHlo.after (opsC (F := Ideal)) W (Proc.devRef .tc main_v69)
      = Cert.ReferenceIdeal.Read.val_main_v70 (F := Ideal) (a0) (a1) (a2) (a3) (a4) (a9) (a10) (a11) (a12) (a13) := by
  piece_read
  rw [h40, h3, h4]
  rfl

theorem bias1_eq (q : Fin 256) :
    (StableHlo.after (opsC (F := Ideal)) W (Proc.devRef .tc main_v70) : S1x256.Idx → EReal) (ix2 (0 : Fin 1) q)
      = (W (Proc.devRef .tc main_arg15) : S256.Idx → EReal) (ix1 q) := by
  piece_read
  refine shapeCast_apply _ _ (ix2 (0 : Fin 1) q) (ix1 q) ?_
  rw [Shape.rowMajor_val_one, Shape.rowMajor_val_two]
  simp

end Cert.Bridge

end
-- ==== Proof.RefLayers.lean ====
/-
  The reference's two hidden layers read at an entry.
  Each is a matrix product of the aggregated node features with the layer's weights, plus the bias row, clamped
  below at zero: entry (p, q) is max (sum over k of agg(p, k) * W(k, q) + b(q)) 0.
-/
import proofs.«110293_j1056561954976_2_alg».proof.Proof.Gen.ReferenceIdeal.Read
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.StableHlo Idealize.ShloMosaic.ValueIdx

/-- The reference's hidden layer, entry (p, q): the row of aggregated features against a column of the weight
    matrix, plus the bias, clamped below at the zero word's value. -/
theorem ref_layer1 (a0 : (⟨Cert.ReferenceIdeal.S2000000, .i32⟩ : BufTy).Contents (Elt Ideal)) (a1 : (⟨Cert.ReferenceIdeal.S2000000, .i32⟩ : BufTy).Contents (Elt Ideal)) (a2 : (⟨Cert.ReferenceIdeal.S2000000, .i32⟩ : BufTy).Contents (Elt Ideal)) (a3 : (⟨Cert.ReferenceIdeal.S1000000, .i32⟩ : BufTy).Contents (Elt Ideal)) (a4 : (⟨Cert.ReferenceIdeal.S1000000, .i32⟩ : BufTy).Contents (Elt Ideal)) (a9 : FVec Ideal Cert.ReferenceIdeal.S500x32 .f32) (a10 : FVec Ideal Cert.ReferenceIdeal.S32x32 .f32) (a11 : FVec Ideal Cert.ReferenceIdeal.S32 .f32) (a12 : FVec Ideal Cert.ReferenceIdeal.S32x32 .f32) (a13 : FVec Ideal Cert.ReferenceIdeal.S32 .f32) (a14 : FVec Ideal Cert.ReferenceIdeal.S64x256 .f32) (a15 : FVec Ideal Cert.ReferenceIdeal.S256 .f32) (p : Fin 120000) (q : Fin 256) :
    Cert.ReferenceIdeal.Read.val_main_v75 (F := Ideal) (a0) (a1) (a2) (a3) (a4) (a9) (a10) (a11) (a12) (a13) (a14) (a15) (ix2 p q)
      = max (∑ k : Fin 64, Cert.ReferenceIdeal.Read.val_main_v70 (F := Ideal) (a0) (a1) (a2) (a3) (a4) (a9) (a10) (a11) (a12) (a13) (ix2 p k) * a14 (ix2 k q) + a15 (ix1 q)) (Ideal.ofBits .f32 0x00000000#32) := by
  rw [Cert.ReferenceIdeal.Read.val_main_v75_apply, Cert.ReferenceIdeal.Read.val_main_v74_apply, Cert.ReferenceIdeal.Read.val_main_v71_apply, Cert.ReferenceIdeal.Read.val_main_v73_apply, Cert.ReferenceIdeal.Read.val_main_v72_apply,
    Cert.ReferenceIdeal.Read.val_main_call1_v0_apply, Cert.ReferenceIdeal.Read.val_main_call1_cst_apply]
  have hl : ∀ k : Fin 64, Cert.ReferenceIdeal.Read.lidx_main_v71 (ix2 p q) k = ix2 p k := fun k => funext fun a => by
    match a with | ⟨0, _⟩ => rfl | ⟨1, _⟩ => rfl
  have hr : ∀ k : Fin 64, Cert.ReferenceIdeal.Read.ridx_main_v71 (ix2 p q) k = ix2 k q := fun k => funext fun a => by
    match a with | ⟨0, _⟩ => rfl | ⟨1, _⟩ => rfl
  have hb : Cert.ReferenceIdeal.Read.idx_main_v72 (Cert.ReferenceIdeal.Read.idx_main_v73 (ix2 p q)) = ix1 q := funext fun a => by
    match a with | ⟨0, _⟩ => rfl
  simp only [hl, hr, hb]
  rfl

/-- The reference's hidden layer, entry (p, q): the row of aggregated features against a column of the weight
    matrix, plus the bias, clamped below at the zero word's value. -/
theorem ref_layer2 (a0 : (⟨Cert.ReferenceIdeal.S2000000, .i32⟩ : BufTy).Contents (Elt Ideal)) (a1 : (⟨Cert.ReferenceIdeal.S2000000, .i32⟩ : BufTy).Contents (Elt Ideal)) (a2 : (⟨Cert.ReferenceIdeal.S2000000, .i32⟩ : BufTy).Contents (Elt Ideal)) (a3 : (⟨Cert.ReferenceIdeal.S1000000, .i32⟩ : BufTy).Contents (Elt Ideal)) (a4 : (⟨Cert.ReferenceIdeal.S1000000, .i32⟩ : BufTy).Contents (Elt Ideal)) (a5 : (⟨Cert.ReferenceIdeal.S500000, .i32⟩ : BufTy).Contents (Elt Ideal)) (a6 : (⟨Cert.ReferenceIdeal.S500000, .i32⟩ : BufTy).Contents (Elt Ideal)) (a9 : FVec Ideal Cert.ReferenceIdeal.S500x32 .f32) (a10 : FVec Ideal Cert.ReferenceIdeal.S32x32 .f32) (a11 : FVec Ideal Cert.ReferenceIdeal.S32 .f32) (a12 : FVec Ideal Cert.ReferenceIdeal.S32x32 .f32) (a13 : FVec Ideal Cert.ReferenceIdeal.S32 .f32) (a14 : FVec Ideal Cert.ReferenceIdeal.S64x256 .f32) (a15 : FVec Ideal Cert.ReferenceIdeal.S256 .f32) (a16 : FVec Ideal Cert.ReferenceIdeal.S256x256 .f32) (a17 : FVec Ideal Cert.ReferenceIdeal.S256 .f32) (p : Fin 100000) (q : Fin 256) :
    Cert.ReferenceIdeal.Read.val_main_v109 (F := Ideal) (a0) (a1) (a2) (a3) (a4) (a5) (a6) (a9) (a10) (a11) (a12) (a13) (a14) (a15) (a16) (a17) (ix2 p q)
      = max (∑ k : Fin 256, Cert.ReferenceIdeal.Read.val_main_v104 (F := Ideal) (a0) (a1) (a2) (a3) (a4) (a5) (a6) (a9) (a10) (a11) (a12) (a13) (a14) (a15) (ix2 p k) * a16 (ix2 k q) + a17 (ix1 q)) (Ideal.ofBits .f32 0x00000000#32) := by
  rw [Cert.ReferenceIdeal.Read.val_main_v109_apply, Cert.ReferenceIdeal.Read.val_main_v108_apply, Cert.ReferenceIdeal.Read.val_main_v105_apply, Cert.ReferenceIdeal.Read.val_main_v107_apply, Cert.ReferenceIdeal.Read.val_main_v106_apply,
    Cert.ReferenceIdeal.Read.val_main_call2_v0_apply, Cert.ReferenceIdeal.Read.val_main_call2_cst_apply]
  have hl : ∀ k : Fin 256, Cert.ReferenceIdeal.Read.lidx_main_v105 (ix2 p q) k = ix2 p k := fun k => funext fun a => by
    match a with | ⟨0, _⟩ => rfl | ⟨1, _⟩ => rfl
  have hr : ∀ k : Fin 256, Cert.ReferenceIdeal.Read.ridx_main_v105 (ix2 p q) k = ix2 k q := fun k => funext fun a => by
    match a with | ⟨0, _⟩ => rfl | ⟨1, _⟩ => rfl
  have hb : Cert.ReferenceIdeal.Read.idx_main_v106 (Cert.ReferenceIdeal.Read.idx_main_v107 (ix2 p q)) = ix1 q := funext fun a => by
    match a with | ⟨0, _⟩ => rfl
  simp only [hl, hr, hb]
  rfl

end Cert.Bridge

end
-- ==== Proof.MatmulSpec.lean ====
/-
  The value each of the three matrix kernels computes, as a function of whole arrays. For a left factor x of M rows and
  K columns, a right factor w of K rows and N columns and a bias b of one row and N columns, the entry in row p and
  column q is the finite sum over k of x(p, k) · w(k, q), plus b(0, q); the rectified form takes the larger of that and
  a threshold z. The entry depends on row p of x, on column q of w and on entry q of the bias row, and on nothing else.
-/
import Idealize.ShloMosaic.PureOps.Ideal.Laws
import Idealize.ShloMosaic.Lib.ValueIdx

noncomputable section

namespace Cert.KernelIdeal.Blocks

open Idealize.ShloMosaic Idealize.ShloMosaic.ValueIdx

/-- The product of x and w with the bias row added to every row. -/
def mmBias {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => ∑ k : Fin K, x (ix2 (i 0 : Fin M) k) * w (ix2 k (i 1 : Fin N)) + b (ix2 (0 : Fin 1) (i 1 : Fin N))

/-- The same, each entry replaced by the larger of itself and z. -/
def mmBiasMax {M K N : ℕ} (z : EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (mmBias x w b i) z

/-- Entry (p, q) of the biased product. -/
theorem mmBias_apply {M K N : ℕ} (x : (⟨2, ![M, K]⟩ : Shape).Idx → EReal) (w : (⟨2, ![K, N]⟩ : Shape).Idx → EReal)
    (b : (⟨2, ![1, N]⟩ : Shape).Idx → EReal) (p : Fin M) (q : Fin N) :
    mmBias x w b (ix2 p q) = ∑ k : Fin K, x (ix2 p k) * w (ix2 k q) + b (ix2 (0 : Fin 1) q) := rfl

/-- Entry (p, q) of the rectified biased product. -/
theorem mmBiasMax_apply {M K N : ℕ} (z : EReal) (x : (⟨2, ![M, K]⟩ : Shape).Idx → EReal) (w : (⟨2, ![K, N]⟩ : Shape).Idx → EReal)
    (b : (⟨2, ![1, N]⟩ : Shape).Idx → EReal) (p : Fin M) (q : Fin N) :
    mmBiasMax z x w b (ix2 p q) = max (∑ k : Fin K, x (ix2 p k) * w (ix2 k q) + b (ix2 (0 : Fin 1) q)) z := rfl

end Cert.KernelIdeal.Blocks

end
-- ==== Proof.Region0.lean ====
/-
  The first matrix kernel, from its blocks to its whole result. The grid has 15 points; point t takes rows 8000 t to
  8000 t + 7999 of the left factor (64 columns), the whole right factor (64 by 256) and the whole bias row, and writes
  rows 8000 t to 8000 t + 7999 of the result (256 columns). Entry (r, q) of the result is therefore written once, by
  point r / 8000, and depends on row r of the left factor, column q of the right factor and entry q of the bias row:
  it is the sum over k of the products, plus the bias, made at least zero.
-/
import proofs.«110293_j1056561954976_2_alg».proof.Proof.Gen.KernelIdeal.Frame
import proofs.«110293_j1056561954976_2_alg».proof.Proof.MatmulSpec
import proofs.«110293_j1056561954976_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks.R0

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The all-zero offset, as the constant function. -/
theorem origin : (![0, 0] : Fin 2 → Nat) = fun _ => 0 := funext fun a => by fin_cases a <;> rfl

/-- One grid point's result. Entry (p, q) of the stored block is the sum, over the inner index k, of the products of
    entry (p, k) of the left block and entry (k, q) of the right factor, plus entry q of the bias row, and then the larger of
    that and the value of the zero word: the changes of format on the way are the identity on the extended reals. -/
theorem pay_apply (x0 : Vec Ideal S8000x64 .f32) (x1 : Vec Ideal S64x256 .f32) (x2 : Vec Ideal S1x256 .f32) (p : Fin 8000) (q : Fin 256) :
    Gen.k0_pay1 (F := Ideal) x0 x1 x2 (ix2 p q) = max (∑ k : Fin 64, x0 (ix2 p k) * x1 (ix2 k q) + x2 (ix2 (0 : Fin 1) q)) (Ideal.ofBits .f32 0x00000000#32) := by
  unfold Gen.k0_pay1
  simp only [shapeCast_self]
  refine (congrArg₂ max (congrArg₂ (· + ·) (matmul_plain_zero_apply _ rfl none _ _ p q) (broadcastTo_1b_ab_apply _ _ p q)) rfl).trans ?_
  rfl

/-- The arrays the four windows move over. -/
theorem refs : Pipeline.arrRef spec0 0 = main_v69 ∧ Pipeline.arrRef spec0 1 = main_arg14 ∧ Pipeline.arrRef spec0 2 = main_v70
    ∧ Pipeline.arrRef spec0 3 = main_v71 := ⟨rfl, rfl, rfl, rfl⟩

/-- The index maps over the grid: at point t the left factor's and the result's block is the t-th block of 8000 rows;
    the right factor and the bias row are taken whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the left block at point t is row 8000 t + p of the left factor. -/
theorem xblk_apply (c : Dev nD) (t : Fin cfg0.N) (p : Fin 8000) (k : Fin 64) (P : Fin 120000) (hP : P.val = t.val * 8000 + p.val) :
    (iblk0 V c 0 t : Vec Ideal S8000x64 .f32) (ix2 p k) = (V c main_v69 : S120000x64.Idx → EReal) (ix2 P k) := by
  obtain ⟨e0, e1, -⟩ := idx_facts t
  unfold iblk0
  rw [View.read_apply]
  show V c main_v69 _ = V c main_v69 _
  congr 1
  funext a
  apply Fin.ext
  match a with
  | ⟨0, _⟩ => show win0_0.index t (0 : Fin 2) * 8000 + 1 * p.val = P.val; rw [e0, hP]; omega
  | ⟨1, _⟩ => show win0_0.index t (1 : Fin 2) * 64 + 1 * k.val = k.val; rw [e1]; omega

/-- The right block at every point is the right factor. -/
theorem wblk_apply (c : Dev nD) (t : Fin cfg0.N) (k : Fin 64) (q : Fin 256) :
    (iblk0 V c 1 t : Vec Ideal S64x256 .f32) (ix2 k q) = (V c main_arg14 : S64x256.Idx → EReal) (ix2 k q) := by
  obtain ⟨-, -, e0, e1, -⟩ := idx_facts t
  unfold iblk0
  rw [View.read_apply]
  show V c main_arg14 _ = V c main_arg14 _
  congr 1
  funext a
  apply Fin.ext
  match a with
  | ⟨0, _⟩ => show win0_1.index t (0 : Fin 2) * 64 + 1 * k.val = k.val; rw [e0]; omega
  | ⟨1, _⟩ => show win0_1.index t (1 : Fin 2) * 256 + 1 * q.val = q.val; rw [e1]; omega

/-- The bias block at every point is the bias row. -/
theorem bblk_apply (c : Dev nD) (t : Fin cfg0.N) (q : Fin 256) :
    (iblk0 V c 2 t : Vec Ideal S1x256 .f32) (ix2 (0 : Fin 1) q) = (V c main_v70 : S1x256.Idx → EReal) (ix2 (0 : Fin 1) q) := by
  obtain ⟨-, -, -, -, e0, e1, -⟩ := idx_facts t
  unfold iblk0
  rw [View.read_apply]
  show V c main_v70 _ = V c main_v70 _
  congr 1
  funext a
  apply Fin.ext
  match a with
  | ⟨0, _⟩ => show win0_2.index t (0 : Fin 2) * 1 + 1 * (0 : Fin 1).val = (0 : Fin 1).val; rw [e0]; omega
  | ⟨1, _⟩ => show win0_2.index t (1 : Fin 2) * 256 + 1 * q.val = q.val; rw [e1]; omega

/-- What point t writes back is the t-th block of rows of the whole-array function: entry (p, q) of the block is
    entry (8000 t + p, q) of the array, which reads row 8000 t + p of the left factor, that is row p of the left block. -/
theorem flushed_eq (c : Dev nD) (t : Fin cfg0.N) :
    (dat0 V c).flushed 3 t = ((cfg0.win 3).blk t).view.read (Elt Ideal) (mmBiasMax (M := 120000) (K := 64) (N := 256) (Ideal.ofBits .f32 0x00000000#32) (V c main_v69) (V c main_arg14) (V c main_v70)) := by
  have hN : grid0.N = 15 := N_0
  have ht : t.val < 15 := by have h : t.val < grid0.N := t.isLt; omega
  obtain ⟨-, -, -, -, -, -, e0, e1⟩ := idx_facts t
  show (cfg0.win 3).cut (grid0.coords t) ((dat0 V c).after 3 t) = _
  rw [after0_3]
  unfold out0_3
  rw [View.canon_unit_zero origin]
  simp only [View.ld_unit_zero (S := S8000x64) origin, View.ld_unit_zero (S := S64x256) origin, View.ld_unit_zero (S := S1x256) origin]
  funext j
  obtain ⟨p, q, rfl⟩ : ∃ (p : Fin 8000) (q : Fin 256), j = (ix2 p q : S8000x256.Idx) := ⟨j 0, j 1, eq_ix2 (n0 := 8000) (n1 := 256) j⟩
  have hp : p.val < 8000 := p.isLt
  refine (pay_apply (iblk0 V c 0 t) (iblk0 V c 1 t) (iblk0 V c 2 t) p q).trans ?_
  have hemb : ((cfg0.win 3).blk t).view.emb (ix2 p q : S8000x256.Idx) = (ix2 (⟨t.val * 8000 + p.val, by omega⟩ : Fin 120000) q : S120000x256.Idx) := by
    funext a
    apply Fin.ext
    match a with
    | ⟨0, _⟩ => show win0_3.index t (0 : Fin 2) * 8000 + 1 * p.val = t.val * 8000 + p.val; rw [e0]; omega
    | ⟨1, _⟩ => show win0_3.index t (1 : Fin 2) * 256 + 1 * q.val = q.val; rw [e1]; omega
  rw [View.read_apply, hemb, mmBiasMax_apply]
  refine congrArg₂ max (congrArg₂ (· + ·) (Finset.sum_congr rfl fun k _ => congrArg₂ (· * ·) (xblk_apply V c t p k _ rfl) (wblk_apply V c t k q)) (bblk_apply V c t q)) rfl

/-- An index of the result array lies in point t's block exactly when each coordinate lies in the block's range. -/
theorem mem_blk (t : Fin cfg0.N) (i : S120000x256.Idx) :
    i ∈ ((cfg0.win 3).blk t).view.set ↔ ∀ a : Fin 2, win0_3.index t a * S8000x256.size a ≤ (i a).val ∧ (i a).val < win0_3.index t a * S8000x256.size a + S8000x256.size a := by
  show i ∈ ((View.whole main_v71).slice (win0_3.rect t)).set ↔ _
  rw [View.set_slice_whole, Rect.mem_set_unit]
  exact Iff.rfl

/-- Every index of the result array is in some point's block: row r is in block r / 8000. -/
theorem cover (i : S120000x256.Idx) : ∃ t : Fin cfg0.N, (cfg0.win 3).flush t = true ∧ i ∈ ((cfg0.win 3).blk t).view.set := by
  have hN : grid0.N = 15 := N_0
  have hi0 : (i 0).val < 120000 := (i 0).isLt
  have hi1 : (i 1).val < 256 := (i 1).isLt
  let t : Fin cfg0.N := ⟨(i 0).val / 8000, by show (i 0).val / 8000 < grid0.N; omega⟩
  have htv : t.val = (i 0).val / 8000 := rfl
  obtain ⟨-, -, -, -, -, -, e0, e1⟩ := idx_facts t
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; rw [e0, htv]; omega
  | ⟨1, _⟩ => show win0_3.index t (1 : Fin 2) * 256 ≤ (i 1).val ∧ (i 1).val < win0_3.index t (1 : Fin 2) * 256 + 256; rw [e1]; omega

/-- The result array after the last point is the whole-array function of the three arrays as the region finds them. -/
theorem final (c : Dev nD) :
    (dat0 V c).arrAt 3 cfg0.N = mmBiasMax (M := 120000) (K := 64) (N := 256) (Ideal.ofBits .f32 0x00000000#32) (V c main_v69) (V c main_arg14) (V c main_v70) :=
  (dat0 V c).arrAt_eq_of_cover 3 (mmBiasMax (M := 120000) (K := 64) (N := 256) (Ideal.ofBits .f32 0x00000000#32) (V c main_v69) (V c main_arg14) (V c main_v70)) (fun t _ => flushed_eq V c t) cover

/-- Entry (p, q) of the result array after the last point, with the three arrays named x, w and b: the sum over k of
    x(p, k) · w(k, q), plus b(0, q), made at least zero. -/
theorem final_apply (c : Dev nD) (x : S120000x64.Idx → EReal) (w : S64x256.Idx → EReal) (b : S1x256.Idx → EReal)
    (hx : V c main_v69 = x) (hw : V c main_arg14 = w) (hb : V c main_v70 = b) (p : Fin 120000) (q : Fin 256) :
    ((dat0 V c).arrAt 3 cfg0.N (ix2 p q : S120000x256.Idx) : EReal)
      = max (∑ k : Fin 64, x (ix2 p k) * w (ix2 k q) + b (ix2 (0 : Fin 1) q)) 0 := by
  subst hx hw hb
  rw [final V c, mmBiasMax_apply, Ideal.ofBits_zero_f32]

end Cert.KernelIdeal.Blocks.R0

end
-- ==== Proof.Layer1.lean ====
/-
  The kernel program's first hidden layer is the reference's.
  The first stretch of host operations leaves the reference's aggregated features at the first matmul region's
  input array, the bias as its bias row and the weight matrix untouched; the region's output array holds, at
  entry (p, q), max (sum over k of agg(p, k) * W(k, q) + b(q)) 0, which is the reference's hidden layer there.
-/
import proofs.«110293_j1056561954976_2_alg».proof.Proof.Gen.KernelIdeal.Frame
import proofs.«110293_j1056561954976_2_alg».proof.Proof.Gen.ReferenceIdeal.Read
import proofs.«110293_j1056561954976_2_alg».proof.Proof.Boundaries
import proofs.«110293_j1056561954976_2_alg».proof.Proof.HostChunks
import proofs.«110293_j1056561954976_2_alg».proof.Proof.EdgeFeatures
import proofs.«110293_j1056561954976_2_alg».proof.Proof.NodeFeatures
import proofs.«110293_j1056561954976_2_alg».proof.Proof.AggStage
import proofs.«110293_j1056561954976_2_alg».proof.Proof.RefLayers
import proofs.«110293_j1056561954976_2_alg».proof.Proof.Region0
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The aggregated features at the first region's entry. -/
theorem agg1_at_entry :
    V1 m ρ c main_v69 = Cert.ReferenceIdeal.Read.val_main_v70 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) := by
  show StableHlo.after (hostOps0 (F := Ideal)) (W0 m ρ c) (Proc.devRef .tc main_v69) = _
  rw [after_hostOps0]
  refine agg1_eq _ _ _ _ _ _ _ _ _ _ _ ?_ ?_ ?_
  · exact node_feat_eq _ _ _ _ _ _ _ _ _ (out_feat_eq _) (in_feat_eq _) (opsA_arg1 _) (opsA_arg2 _)
  · exact (opsB_arg3 _).trans (opsA_arg3 _)
  · exact (opsB_arg4 _).trans (opsA_arg4 _)

/-- The bias row at the first region's entry. -/
theorem bias1_at_entry (q : Fin 256) :
    (V1 m ρ c main_v70 : S1x256.Idx → EReal) (ix2 (0 : Fin 1) q) = (W0 m ρ c (Proc.devRef .tc main_arg15) : S256.Idx → EReal) (ix1 q) := by
  show (StableHlo.after (hostOps0 (F := Ideal)) (W0 m ρ c) (Proc.devRef .tc main_v70) : S1x256.Idx → EReal) _ = _
  rw [after_hostOps0, bias1_eq, opsB_arg15, opsA_arg15]

/-- The first hidden layer. -/
theorem layer1_eq :
    W2 m ρ c (Proc.devRef .tc main_v71) = Cert.ReferenceIdeal.Read.val_main_v75 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) := by
  rw [W2_v71]
  funext i
  obtain ⟨p, q, rfl⟩ : ∃ (p : Fin 120000) (q : Fin 256), i = ix2 p q := ⟨i 0, i 1, eq_ix2 i⟩
  rw [ref_layer1]
  refine (Cert.KernelIdeal.Blocks.R0.final_apply (V1 m ρ) c _ _ _ (agg1_at_entry m ρ c) (W1_arg14 m ρ c) rfl p q).trans ?_
  rw [bias1_at_entry, Ideal.ofBits_zero_f32]

end Cert.Bridge

end
-- ==== Proof.Agg2Stage.lean ====
/-
  The aggregated features the second matmul region starts from are the reference's, and the bias row is the bias.
  Past the first hidden layer both programs apply the same operations of the second graph convolution — degrees,
  inverse square roots, scaling, lookup by source node, segment sum over destination nodes, scaling — the kernel
  program's changes of float format between them being the identity on extended reals.
-/
import proofs.«110293_j1056561954976_2_alg».proof.Proof.Gen.KernelIdeal.Launch
import proofs.«110293_j1056561954976_2_alg».proof.Proof.Gen.ReferenceIdeal.Read
import proofs.«110293_j1056561954976_2_alg».proof.Proof.FoldRead
import Idealize.ShloMosaic.Lib.StableHlo.Run
import Idealize.ShloMosaic.Lib.Pipeline.Value

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

/-- A change of float format is the identity on extended reals: widening. -/
theorem extf_vec_id {s : Shape} {φ ψ : FTy} (a : FVec Ideal s φ) (h : φ.bits < ψ.bits) : (extf ψ a h : s.Idx → EReal) = a := rfl

/-- A change of float format is the identity on extended reals: narrowing. -/
theorem truncf_vec_id {s : Shape} {φ ψ : FTy} (a : FVec Ideal s φ) (h : ψ.bits < φ.bits) : (truncf ψ a h : s.Idx → EReal) = a := rfl

variable (W : Valuation τ sig (Elt Ideal))

theorem agg2_eq (a0 : (⟨Cert.ReferenceIdeal.S2000000, .i32⟩ : BufTy).Contents (Elt Ideal)) (a1 : (⟨Cert.ReferenceIdeal.S2000000, .i32⟩ : BufTy).Contents (Elt Ideal)) (a2 : (⟨Cert.ReferenceIdeal.S2000000, .i32⟩ : BufTy).Contents (Elt Ideal)) (a3 : (⟨Cert.ReferenceIdeal.S1000000, .i32⟩ : BufTy).Contents (Elt Ideal)) (a4 : (⟨Cert.ReferenceIdeal.S1000000, .i32⟩ : BufTy).Contents (Elt Ideal)) (a5 : (⟨Cert.ReferenceIdeal.S500000, .i32⟩ : BufTy).Contents (Elt Ideal)) (a6 : (⟨Cert.ReferenceIdeal.S500000, .i32⟩ : BufTy).Contents (Elt Ideal)) (a9 : FVec Ideal Cert.ReferenceIdeal.S500x32 .f32) (a10 : FVec Ideal Cert.ReferenceIdeal.S32x32 .f32) (a11 : FVec Ideal Cert.ReferenceIdeal.S32 .f32) (a12 : FVec Ideal Cert.ReferenceIdeal.S32x32 .f32) (a13 : FVec Ideal Cert.ReferenceIdeal.S32 .f32) (a14 : FVec Ideal Cert.ReferenceIdeal.S64x256 .f32) (a15 : FVec Ideal Cert.ReferenceIdeal.S256 .f32)
    (h71 : W (Proc.devRef .tc main_v71) = Cert.ReferenceIdeal.Read.val_main_v75 (F := Ideal) (a0) (a1) (a2) (a3) (a4) (a9) (a10) (a11) (a12) (a13) (a14) (a15))
    (h5 : W (Proc.devRef .tc main_arg5) = a5) (h6 : W (Proc.devRef .tc main_arg6) = a6) :
    StableHlo.after (hostOps1 (F := Ideal)) W (Proc.devRef .tc main_v103)
      = Cert.ReferenceIdeal.Read.val_main_v104 (F := Ideal) (a0) (a1) (a2) (a3) (a4) (a5) (a6) (a9) (a10) (a11) (a12) (a13) (a14) (a15) := by
  fold_read
  rw [h71, h5, h6]
  rw [extf_vec_id, truncf_vec_id, extf_vec_id]
  rfl

theorem bias2_eq (q : Fin 256) :
    (StableHlo.after (hostOps1 (F := Ideal)) W (Proc.devRef .tc main_v104) : S1x256.Idx → EReal) (ix2 (0 : Fin 1) q)
      = (W (Proc.devRef .tc main_arg17) : S256.Idx → EReal) (ix1 q) := by
  fold_read
  refine shapeCast_apply _ _ (ix2 (0 : Fin 1) q) (ix1 q) ?_
  rw [Shape.rowMajor_val_one, Shape.rowMajor_val_two]
  simp

end Cert.Bridge

end
-- ==== Proof.Region1.lean ====
/-
  The second matrix kernel, from its blocks to its whole result. The grid has 25 points; point t takes rows 4000 t to
  4000 t + 3999 of the left factor (256 columns), the whole right factor (256 by 256) and the whole bias row, and writes
  rows 4000 t to 4000 t + 3999 of the result (256 columns). Entry (r, q) of the result is therefore written once, by
  point r / 4000, and depends on row r of the left factor, column q of the right factor and entry q of the bias row:
  it is the sum over k of the products, plus the bias, made at least zero.
-/
import proofs.«110293_j1056561954976_2_alg».proof.Proof.Gen.KernelIdeal.Frame
import proofs.«110293_j1056561954976_2_alg».proof.Proof.MatmulSpec
import proofs.«110293_j1056561954976_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks.R1

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The all-zero offset, as the constant function. -/
theorem origin : (![0, 0] : Fin 2 → Nat) = fun _ => 0 := funext fun a => by fin_cases a <;> rfl

/-- One grid point's result. Entry (p, q) of the stored block is the sum, over the inner index k, of the products of
    entry (p, k) of the left block and entry (k, q) of the right factor, plus entry q of the bias row, and then the larger of
    that and the value of the zero word: the changes of format on the way are the identity on the extended reals. -/
theorem pay_apply (x0 : Vec Ideal S4000x256 .f32) (x1 : Vec Ideal S256x256 .f32) (x2 : Vec Ideal S1x256 .f32) (p : Fin 4000) (q : Fin 256) :
    Gen.k1_pay1 (F := Ideal) x0 x1 x2 (ix2 p q) = max (∑ k : Fin 256, x0 (ix2 p k) * x1 (ix2 k q) + x2 (ix2 (0 : Fin 1) q)) (Ideal.ofBits .f32 0x00000000#32) := by
  unfold Gen.k1_pay1
  simp only [shapeCast_self]
  refine (congrArg₂ max (congrArg₂ (· + ·) (matmul_plain_zero_apply _ rfl none _ _ p q) (broadcastTo_1b_ab_apply _ _ p q)) rfl).trans ?_
  rfl

/-- The arrays the four windows move over. -/
theorem refs : Pipeline.arrRef spec1 0 = main_v103 ∧ Pipeline.arrRef spec1 1 = main_arg16 ∧ Pipeline.arrRef spec1 2 = main_v104
    ∧ Pipeline.arrRef spec1 3 = main_v105 := ⟨rfl, rfl, rfl, rfl⟩

/-- The index maps over the grid: at point t the left factor's and the result's block is the t-th block of 4000 rows;
    the right factor and the bias row are taken whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the left block at point t is row 4000 t + p of the left factor. -/
theorem xblk_apply (c : Dev nD) (t : Fin cfg1.N) (p : Fin 4000) (k : Fin 256) (P : Fin 100000) (hP : P.val = t.val * 4000 + p.val) :
    (iblk1 V c 0 t : Vec Ideal S4000x256 .f32) (ix2 p k) = (V c main_v103 : S100000x256.Idx → EReal) (ix2 P k) := by
  obtain ⟨e0, e1, -⟩ := idx_facts t
  unfold iblk1
  rw [View.read_apply]
  show V c main_v103 _ = V c main_v103 _
  congr 1
  funext a
  apply Fin.ext
  match a with
  | ⟨0, _⟩ => show win1_0.index t (0 : Fin 2) * 4000 + 1 * p.val = P.val; rw [e0, hP]; omega
  | ⟨1, _⟩ => show win1_0.index t (1 : Fin 2) * 256 + 1 * k.val = k.val; rw [e1]; omega

/-- The right block at every point is the right factor. -/
theorem wblk_apply (c : Dev nD) (t : Fin cfg1.N) (k : Fin 256) (q : Fin 256) :
    (iblk1 V c 1 t : Vec Ideal S256x256 .f32) (ix2 k q) = (V c main_arg16 : S256x256.Idx → EReal) (ix2 k q) := by
  obtain ⟨-, -, e0, e1, -⟩ := idx_facts t
  unfold iblk1
  rw [View.read_apply]
  show V c main_arg16 _ = V c main_arg16 _
  congr 1
  funext a
  apply Fin.ext
  match a with
  | ⟨0, _⟩ => show win1_1.index t (0 : Fin 2) * 256 + 1 * k.val = k.val; rw [e0]; omega
  | ⟨1, _⟩ => show win1_1.index t (1 : Fin 2) * 256 + 1 * q.val = q.val; rw [e1]; omega

/-- The bias block at every point is the bias row. -/
theorem bblk_apply (c : Dev nD) (t : Fin cfg1.N) (q : Fin 256) :
    (iblk1 V c 2 t : Vec Ideal S1x256 .f32) (ix2 (0 : Fin 1) q) = (V c main_v104 : S1x256.Idx → EReal) (ix2 (0 : Fin 1) q) := by
  obtain ⟨-, -, -, -, e0, e1, -⟩ := idx_facts t
  unfold iblk1
  rw [View.read_apply]
  show V c main_v104 _ = V c main_v104 _
  congr 1
  funext a
  apply Fin.ext
  match a with
  | ⟨0, _⟩ => show win1_2.index t (0 : Fin 2) * 1 + 1 * (0 : Fin 1).val = (0 : Fin 1).val; rw [e0]; omega
  | ⟨1, _⟩ => show win1_2.index t (1 : Fin 2) * 256 + 1 * q.val = q.val; rw [e1]; omega

/-- What point t writes back is the t-th block of rows of the whole-array function: entry (p, q) of the block is
    entry (4000 t + p, q) of the array, which reads row 4000 t + p of the left factor, that is row p of the left block. -/
theorem flushed_eq (c : Dev nD) (t : Fin cfg1.N) :
    (dat1 V c).flushed 3 t = ((cfg1.win 3).blk t).view.read (Elt Ideal) (mmBiasMax (M := 100000) (K := 256) (N := 256) (Ideal.ofBits .f32 0x00000000#32) (V c main_v103) (V c main_arg16) (V c main_v104)) := by
  have hN : grid1.N = 25 := N_1
  have ht : t.val < 25 := by have h : t.val < grid1.N := t.isLt; omega
  obtain ⟨-, -, -, -, -, -, e0, e1⟩ := idx_facts t
  show (cfg1.win 3).cut (grid1.coords t) ((dat1 V c).after 3 t) = _
  rw [after1_3]
  unfold out1_3
  rw [View.canon_unit_zero origin]
  simp only [View.ld_unit_zero (S := S4000x256) origin, View.ld_unit_zero (S := S256x256) origin, View.ld_unit_zero (S := S1x256) origin]
  funext j
  obtain ⟨p, q, rfl⟩ : ∃ (p : Fin 4000) (q : Fin 256), j = (ix2 p q : S4000x256.Idx) := ⟨j 0, j 1, eq_ix2 (n0 := 4000) (n1 := 256) j⟩
  have hp : p.val < 4000 := p.isLt
  refine (pay_apply (iblk1 V c 0 t) (iblk1 V c 1 t) (iblk1 V c 2 t) p q).trans ?_
  have hemb : ((cfg1.win 3).blk t).view.emb (ix2 p q : S4000x256.Idx) = (ix2 (⟨t.val * 4000 + p.val, by omega⟩ : Fin 100000) q : S100000x256.Idx) := by
    funext a
    apply Fin.ext
    match a with
    | ⟨0, _⟩ => show win1_3.index t (0 : Fin 2) * 4000 + 1 * p.val = t.val * 4000 + p.val; rw [e0]; omega
    | ⟨1, _⟩ => show win1_3.index t (1 : Fin 2) * 256 + 1 * q.val = q.val; rw [e1]; omega
  rw [View.read_apply, hemb, mmBiasMax_apply]
  refine congrArg₂ max (congrArg₂ (· + ·) (Finset.sum_congr rfl fun k _ => congrArg₂ (· * ·) (xblk_apply V c t p k _ rfl) (wblk_apply V c t k q)) (bblk_apply V c t q)) rfl

/-- An index of the result array lies in point t's block exactly when each coordinate lies in the block's range. -/
theorem mem_blk (t : Fin cfg1.N) (i : S100000x256.Idx) :
    i ∈ ((cfg1.win 3).blk t).view.set ↔ ∀ a : Fin 2, win1_3.index t a * S4000x256.size a ≤ (i a).val ∧ (i a).val < win1_3.index t a * S4000x256.size a + S4000x256.size a := by
  show i ∈ ((View.whole main_v105).slice (win1_3.rect t)).set ↔ _
  rw [View.set_slice_whole, Rect.mem_set_unit]
  exact Iff.rfl

/-- Every index of the result array is in some point's block: row r is in block r / 4000. -/
theorem cover (i : S100000x256.Idx) : ∃ t : Fin cfg1.N, (cfg1.win 3).flush t = true ∧ i ∈ ((cfg1.win 3).blk t).view.set := by
  have hN : grid1.N = 25 := N_1
  have hi0 : (i 0).val < 100000 := (i 0).isLt
  have hi1 : (i 1).val < 256 := (i 1).isLt
  let t : Fin cfg1.N := ⟨(i 0).val / 4000, by show (i 0).val / 4000 < grid1.N; omega⟩
  have htv : t.val = (i 0).val / 4000 := rfl
  obtain ⟨-, -, -, -, -, -, e0, e1⟩ := idx_facts t
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; rw [e0, htv]; omega
  | ⟨1, _⟩ => show win1_3.index t (1 : Fin 2) * 256 ≤ (i 1).val ∧ (i 1).val < win1_3.index t (1 : Fin 2) * 256 + 256; rw [e1]; omega

/-- The result array after the last point is the whole-array function of the three arrays as the region finds them. -/
theorem final (c : Dev nD) :
    (dat1 V c).arrAt 3 cfg1.N = mmBiasMax (M := 100000) (K := 256) (N := 256) (Ideal.ofBits .f32 0x00000000#32) (V c main_v103) (V c main_arg16) (V c main_v104) :=
  (dat1 V c).arrAt_eq_of_cover 3 (mmBiasMax (M := 100000) (K := 256) (N := 256) (Ideal.ofBits .f32 0x00000000#32) (V c main_v103) (V c main_arg16) (V c main_v104)) (fun t _ => flushed_eq V c t) cover

/-- Entry (p, q) of the result array after the last point, with the three arrays named x, w and b: the sum over k of
    x(p, k) · w(k, q), plus b(0, q), made at least zero. -/
theorem final_apply (c : Dev nD) (x : S100000x256.Idx → EReal) (w : S256x256.Idx → EReal) (b : S1x256.Idx → EReal)
    (hx : V c main_v103 = x) (hw : V c main_arg16 = w) (hb : V c main_v104 = b) (p : Fin 100000) (q : Fin 256) :
    ((dat1 V c).arrAt 3 cfg1.N (ix2 p q : S100000x256.Idx) : EReal)
      = max (∑ k : Fin 256, x (ix2 p k) * w (ix2 k q) + b (ix2 (0 : Fin 1) q)) 0 := by
  subst hx hw hb
  rw [final V c, mmBiasMax_apply, Ideal.ofBits_zero_f32]

end Cert.KernelIdeal.Blocks.R1

end
-- ==== Proof.Layer2.lean ====
/-
  The kernel program's second hidden layer is the reference's.
  The second stretch of host operations leaves the reference's aggregated features of the second graph convolution
  at the second matmul region's input array, the bias as its bias row and the weight matrix untouched; the region's
  output array holds, at entry (p, q), max (sum over k of agg(p, k) * W(k, q) + b(q)) 0, the reference's layer there.
-/
import proofs.«110293_j1056561954976_2_alg».proof.Proof.Gen.KernelIdeal.Frame
import proofs.«110293_j1056561954976_2_alg».proof.Proof.Gen.ReferenceIdeal.Read
import proofs.«110293_j1056561954976_2_alg».proof.Proof.Boundaries
import proofs.«110293_j1056561954976_2_alg».proof.Proof.Layer1
import proofs.«110293_j1056561954976_2_alg».proof.Proof.Agg2Stage
import proofs.«110293_j1056561954976_2_alg».proof.Proof.RefLayers
import proofs.«110293_j1056561954976_2_alg».proof.Proof.Region1
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The aggregated features at the second region's entry. -/
theorem agg2_at_entry :
    V3 m ρ c main_v103 = Cert.ReferenceIdeal.Read.val_main_v104 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) := by
  show StableHlo.after (hostOps1 (F := Ideal)) (W2 m ρ c) (Proc.devRef .tc main_v103) = _
  exact agg2_eq (W2 m ρ c) _ _ _ _ _ _ _ _ _ _ _ _ _ _ (layer1_eq m ρ c) (W2_arg5 m ρ c) (W2_arg6 m ρ c)

/-- The bias row at the second region's entry. -/
theorem bias2_at_entry (q : Fin 256) :
    (V3 m ρ c main_v104 : S1x256.Idx → EReal) (ix2 (0 : Fin 1) q) = (W0 m ρ c (Proc.devRef .tc main_arg17) : S256.Idx → EReal) (ix1 q) := by
  show (StableHlo.after (hostOps1 (F := Ideal)) (W2 m ρ c) (Proc.devRef .tc main_v104) : S1x256.Idx → EReal) _ = _
  rw [bias2_eq, W2_arg17]

/-- The second hidden layer. -/
theorem layer2_eq :
    W4 m ρ c (Proc.devRef .tc main_v105) = Cert.ReferenceIdeal.Read.val_main_v109 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) := by
  rw [W4_v105]
  funext i
  obtain ⟨p, q, rfl⟩ : ∃ (p : Fin 100000) (q : Fin 256), i = ix2 p q := ⟨i 0, i 1, eq_ix2 i⟩
  rw [ref_layer2]
  refine (Cert.KernelIdeal.Blocks.R1.final_apply (V3 m ρ) c _ _ _ (agg2_at_entry m ρ c) (W3_arg16 m ρ c) rfl p q).trans ?_
  rw [bias2_at_entry, Ideal.ofBits_zero_f32]

end Cert.Bridge

end
-- ==== Proof.Region2.lean ====
/-
  The third matrix kernel, from its blocks to its whole result. The grid has 25 points; point t takes rows 4000 t to
  4000 t + 3999 of the left factor (256 columns), the whole right factor (256 by 512) and the whole bias row, and writes
  rows 4000 t to 4000 t + 3999 of the result (512 columns). Entry (r, q) of the result is therefore written once, by
  point r / 4000, and depends on row r of the left factor, column q of the right factor and entry q of the bias row:
  it is the sum over k of the products, plus the bias.
-/
import proofs.«110293_j1056561954976_2_alg».proof.Proof.Gen.KernelIdeal.Frame
import proofs.«110293_j1056561954976_2_alg».proof.Proof.MatmulSpec
import proofs.«110293_j1056561954976_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks.R2

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The all-zero offset, as the constant function. -/
theorem origin : (![0, 0] : Fin 2 → Nat) = fun _ => 0 := funext fun a => by fin_cases a <;> rfl

/-- One grid point's result. Entry (p, q) of the stored block is the sum, over the inner index k, of the products of
    entry (p, k) of the left block and entry (k, q) of the right factor, plus entry q of the bias row: the changes of format on the way are the identity on the extended reals. -/
theorem pay_apply (x0 : Vec Ideal S4000x256 .bf16) (x1 : Vec Ideal S256x512 .f32) (x2 : Vec Ideal S1x512 .f32) (p : Fin 4000) (q : Fin 512) :
    Gen.k2_pay1 (F := Ideal) x0 x1 x2 (ix2 p q) = ∑ k : Fin 256, x0 (ix2 p k) * x1 (ix2 k q) + x2 (ix2 (0 : Fin 1) q) := by
  unfold Gen.k2_pay1
  simp only [shapeCast_self]
  refine (congrArg₂ (· + ·) (matmul_plain_zero_apply _ rfl none _ _ p q) (broadcastTo_1b_ab_apply _ _ p q)).trans ?_
  rfl

/-- The arrays the four windows move over. -/
theorem refs : Pipeline.arrRef spec2 0 = main_v105 ∧ Pipeline.arrRef spec2 1 = main_v108 ∧ Pipeline.arrRef spec2 2 = main_v110
    ∧ Pipeline.arrRef spec2 3 = main_v111 := ⟨rfl, rfl, rfl, rfl⟩

/-- The index maps over the grid: at point t the left factor's and the result's block is the t-th block of 4000 rows;
    the right factor and the bias row are taken whole at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the left block at point t is row 4000 t + p of the left factor. -/
theorem xblk_apply (c : Dev nD) (t : Fin cfg2.N) (p : Fin 4000) (k : Fin 256) (P : Fin 100000) (hP : P.val = t.val * 4000 + p.val) :
    (iblk2 V c 0 t : Vec Ideal S4000x256 .bf16) (ix2 p k) = (V c main_v105 : S100000x256.Idx → EReal) (ix2 P k) := by
  obtain ⟨e0, e1, -⟩ := idx_facts t
  unfold iblk2
  rw [View.read_apply]
  show V c main_v105 _ = V c main_v105 _
  congr 1
  funext a
  apply Fin.ext
  match a with
  | ⟨0, _⟩ => show win2_0.index t (0 : Fin 2) * 4000 + 1 * p.val = P.val; rw [e0, hP]; omega
  | ⟨1, _⟩ => show win2_0.index t (1 : Fin 2) * 256 + 1 * k.val = k.val; rw [e1]; omega

/-- The right block at every point is the right factor. -/
theorem wblk_apply (c : Dev nD) (t : Fin cfg2.N) (k : Fin 256) (q : Fin 512) :
    (iblk2 V c 1 t : Vec Ideal S256x512 .f32) (ix2 k q) = (V c main_v108 : S256x512.Idx → EReal) (ix2 k q) := by
  obtain ⟨-, -, e0, e1, -⟩ := idx_facts t
  unfold iblk2
  rw [View.read_apply]
  show V c main_v108 _ = V c main_v108 _
  congr 1
  funext a
  apply Fin.ext
  match a with
  | ⟨0, _⟩ => show win2_1.index t (0 : Fin 2) * 256 + 1 * k.val = k.val; rw [e0]; omega
  | ⟨1, _⟩ => show win2_1.index t (1 : Fin 2) * 512 + 1 * q.val = q.val; rw [e1]; omega

/-- The bias block at every point is the bias row. -/
theorem bblk_apply (c : Dev nD) (t : Fin cfg2.N) (q : Fin 512) :
    (iblk2 V c 2 t : Vec Ideal S1x512 .f32) (ix2 (0 : Fin 1) q) = (V c main_v110 : S1x512.Idx → EReal) (ix2 (0 : Fin 1) q) := by
  obtain ⟨-, -, -, -, e0, e1, -⟩ := idx_facts t
  unfold iblk2
  rw [View.read_apply]
  show V c main_v110 _ = V c main_v110 _
  congr 1
  funext a
  apply Fin.ext
  match a with
  | ⟨0, _⟩ => show win2_2.index t (0 : Fin 2) * 1 + 1 * (0 : Fin 1).val = (0 : Fin 1).val; rw [e0]; omega
  | ⟨1, _⟩ => show win2_2.index t (1 : Fin 2) * 512 + 1 * q.val = q.val; rw [e1]; omega

/-- What point t writes back is the t-th block of rows of the whole-array function: entry (p, q) of the block is
    entry (4000 t + p, q) of the array, which reads row 4000 t + p of the left factor, that is row p of the left block. -/
theorem flushed_eq (c : Dev nD) (t : Fin cfg2.N) :
    (dat2 V c).flushed 3 t = ((cfg2.win 3).blk t).view.read (Elt Ideal) (mmBias (M := 100000) (K := 256) (N := 512) (V c main_v105) (V c main_v108) (V c main_v110)) := by
  have hN : grid2.N = 25 := N_2
  have ht : t.val < 25 := by have h : t.val < grid2.N := t.isLt; omega
  obtain ⟨-, -, -, -, -, -, e0, e1⟩ := idx_facts t
  show (cfg2.win 3).cut (grid2.coords t) ((dat2 V c).after 3 t) = _
  rw [after2_3]
  unfold out2_3
  rw [View.canon_unit_zero origin]
  simp only [View.ld_unit_zero (S := S4000x256) origin, View.ld_unit_zero (S := S256x512) origin, View.ld_unit_zero (S := S1x512) origin]
  funext j
  obtain ⟨p, q, rfl⟩ : ∃ (p : Fin 4000) (q : Fin 512), j = (ix2 p q : S4000x512.Idx) := ⟨j 0, j 1, eq_ix2 (n0 := 4000) (n1 := 512) j⟩
  have hp : p.val < 4000 := p.isLt
  refine (pay_apply (iblk2 V c 0 t) (iblk2 V c 1 t) (iblk2 V c 2 t) p q).trans ?_
  have hemb : ((cfg2.win 3).blk t).view.emb (ix2 p q : S4000x512.Idx) = (ix2 (⟨t.val * 4000 + p.val, by omega⟩ : Fin 100000) q : S100000x512.Idx) := by
    funext a
    apply Fin.ext
    match a with
    | ⟨0, _⟩ => show win2_3.index t (0 : Fin 2) * 4000 + 1 * p.val = t.val * 4000 + p.val; rw [e0]; omega
    | ⟨1, _⟩ => show win2_3.index t (1 : Fin 2) * 512 + 1 * q.val = q.val; rw [e1]; omega
  rw [View.read_apply, hemb, mmBias_apply]
  refine congrArg₂ (· + ·) (Finset.sum_congr rfl fun k _ => congrArg₂ (· * ·) (xblk_apply V c t p k _ rfl) (wblk_apply V c t k q)) (bblk_apply V c t q)

/-- An index of the result array lies in point t's block exactly when each coordinate lies in the block's range. -/
theorem mem_blk (t : Fin cfg2.N) (i : S100000x512.Idx) :
    i ∈ ((cfg2.win 3).blk t).view.set ↔ ∀ a : Fin 2, win2_3.index t a * S4000x512.size a ≤ (i a).val ∧ (i a).val < win2_3.index t a * S4000x512.size a + S4000x512.size a := by
  show i ∈ ((View.whole main_v111).slice (win2_3.rect t)).set ↔ _
  rw [View.set_slice_whole, Rect.mem_set_unit]
  exact Iff.rfl

/-- Every index of the result array is in some point's block: row r is in block r / 4000. -/
theorem cover (i : S100000x512.Idx) : ∃ t : Fin cfg2.N, (cfg2.win 3).flush t = true ∧ i ∈ ((cfg2.win 3).blk t).view.set := by
  have hN : grid2.N = 25 := N_2
  have hi0 : (i 0).val < 100000 := (i 0).isLt
  have hi1 : (i 1).val < 512 := (i 1).isLt
  let t : Fin cfg2.N := ⟨(i 0).val / 4000, by show (i 0).val / 4000 < grid2.N; omega⟩
  have htv : t.val = (i 0).val / 4000 := rfl
  obtain ⟨-, -, -, -, -, -, e0, e1⟩ := idx_facts t
  refine ⟨t, flush2_3 t, ?_⟩
  rw [mem_blk]
  intro a
  match a with
  | ⟨0, _⟩ => show win2_3.index t (0 : Fin 2) * 4000 ≤ (i 0).val ∧ (i 0).val < win2_3.index t (0 : Fin 2) * 4000 + 4000; rw [e0, htv]; omega
  | ⟨1, _⟩ => show win2_3.index t (1 : Fin 2) * 512 ≤ (i 1).val ∧ (i 1).val < win2_3.index t (1 : Fin 2) * 512 + 512; rw [e1]; omega

/-- The result array after the last point is the whole-array function of the three arrays as the region finds them. -/
theorem final (c : Dev nD) :
    (dat2 V c).arrAt 3 cfg2.N = mmBias (M := 100000) (K := 256) (N := 512) (V c main_v105) (V c main_v108) (V c main_v110) :=
  (dat2 V c).arrAt_eq_of_cover 3 (mmBias (M := 100000) (K := 256) (N := 512) (V c main_v105) (V c main_v108) (V c main_v110)) (fun t _ => flushed_eq V c t) cover

/-- Entry (p, q) of the result array after the last point, with the three arrays named x, w and b: the sum over k of
    x(p, k) · w(k, q), plus b(0, q). -/
theorem final_apply (c : Dev nD) (x : S100000x256.Idx → EReal) (w : S256x512.Idx → EReal) (b : S1x512.Idx → EReal)
    (hx : V c main_v105 = x) (hw : V c main_v108 = w) (hb : V c main_v110 = b) (p : Fin 100000) (q : Fin 512) :
    ((dat2 V c).arrAt 3 cfg2.N (ix2 p q : S100000x512.Idx) : EReal)
      = ∑ k : Fin 256, x (ix2 p k) * w (ix2 k q) + b (ix2 (0 : Fin 1) q) := by
  subst hx hw hb
  rw [final V c, mmBias_apply]

end Cert.KernelIdeal.Blocks.R2

end
-- ==== Proof.LibGatherCols.lean ====
/-
  A gather of row segments, read at an entry.

  For a matrix x of N rows and D columns and an index array of R rows and two columns, holding in row e a row number and
  a column start, the gather with slices of one row and C columns yields a matrix of R rows and C columns whose entry
  (e, c) is x(ρ e, σ e + c): ρ e is the row number read as a signed integer and clamped into [0, N − 1], σ e the column
  start read as a signed integer and clamped into [0, D − C], so that the segment of C columns fits.
-/
import Idealize.ShloMosaic.Lib.ValueIdx
import Idealize.ShloMosaic.PureOps.Ideal

noncomputable section

namespace ColOps

open Idealize.ShloMosaic Idealize.ShloMosaic.ValueIdx

variable {α : Type}

/-- The dimension numbers of the segment gather: operand [N, D], start indices [R, 2], result [R, C]. -/
abbrev segGatherDims (N D R C : Nat)
    (wf : GatherDims.WF ⟨2, ![N, D]⟩ ⟨2, ![R, 2]⟩ ⟨2, ![R, C]⟩ [1] [0] [] [0, 1] [] 1 ![1, C]) :
    GatherDims ⟨2, ![N, D]⟩ ⟨2, ![R, 2]⟩ ⟨2, ![R, C]⟩ where
  offsetDims := [1]
  collapsedSliceDims := [0]
  operandBatchingDims := []
  startIndicesBatchingDims := []
  startIndexMap := [0, 1]
  indexVectorDim := 1
  sliceSizes := ![1, C]
  wf := wf

/-- THE SEGMENT GATHER READ AT (e, c): the entry of x in the clamped row, at the clamped column start plus c. -/
theorem gather_segments_apply {N D R C w : Nat}
    (wf : GatherDims.WF ⟨2, ![N, D]⟩ ⟨2, ![R, 2]⟩ ⟨2, ![R, C]⟩ [1] [0] [] [0, 1] [] 1 ![1, C])
    (x : (⟨2, ![N, D]⟩ : Shape).Idx → α) (idx : IVec ⟨2, ![R, 2]⟩ w) (e : Fin R) (c : Fin C) (P : Fin N) (Q : Fin D)
    (hP : P.val = min (idx (ix2 e (0 : Fin 2))).toInt.toNat (N - 1))
    (hQ : Q.val = min (idx (ix2 e (1 : Fin 2))).toInt.toNat (D - C) + c.val) :
    Host.gather (segGatherDims N D R C wf) x idx (ix2 e c) = x (ix2 P Q) := by
  unfold Host.gather
  congr 1
  have hsi0 : (segGatherDims N D R C wf).siIdx (ix2 e c) ⟨List.idxOf (0 : Fin 2) (segGatherDims N D R C wf).startIndexMap,
      List.idxOf_lt_length_iff.2 (List.mem_cons_self)⟩ = ix2 e (0 : Fin 2) := by
    funext b; refine Fin.ext ?_
    match b with
    | ⟨0, _⟩ => rfl
    | ⟨1, _⟩ => rfl
  have hm1 : (1 : Fin 2) ∈ (segGatherDims N D R C wf).startIndexMap := List.mem_cons_of_mem _ (List.mem_singleton.mpr rfl)
  have hsi1 : (segGatherDims N D R C wf).siIdx (ix2 e c) ⟨List.idxOf (1 : Fin 2) (segGatherDims N D R C wf).startIndexMap,
      List.idxOf_lt_length_iff.2 hm1⟩ = ix2 e (1 : Fin 2) := by
    funext b; refine Fin.ext ?_
    match b with
    | ⟨0, _⟩ => rfl
    | ⟨1, _⟩ => rfl
  have h0 : ((segGatherDims N D R C wf).operandIdx (ix2 e c) idx (0 : Fin 2)).val = P.val := by
    show (segGatherDims N D R C wf).start (ix2 e c) idx (0 : Fin 2) + (segGatherDims N D R C wf).batchCoord (ix2 e c) (0 : Fin 2)
        + (segGatherDims N D R C wf).offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (segGatherDims N D R C wf).startIndexMap from List.mem_cons_self), hsi0, hP]
    rfl
  have h1 : ((segGatherDims N D R C wf).operandIdx (ix2 e c) idx (1 : Fin 2)).val = Q.val := by
    show (segGatherDims N D R C wf).start (ix2 e c) idx (1 : Fin 2) + (segGatherDims N D R C wf).batchCoord (ix2 e c) (1 : Fin 2)
        + (segGatherDims N D R C wf).offCoord (ix2 e c) (1 : Fin 2) = _
    rw [GatherDims.batchCoord_eq_zero _ _ _ List.not_mem_nil, Nat.add_zero]
    have hk : (1 : Fin 2) ∈ (segGatherDims N D R C wf).sKept :=
      (GatherDims.mem_sKept _ _).mpr ⟨fun h => absurd (List.mem_singleton.mp h) (by decide : ¬ (1 : Fin 2) = 0),
        List.not_mem_nil⟩
    unfold GatherDims.start GatherDims.offCoord
    rw [dif_pos hm1, dif_pos hk, hsi1, hQ]
    rfl
  funext a
  refine Fin.ext ?_
  match a with
  | ⟨0, _⟩ => exact h0
  | ⟨1, _⟩ => exact h1

end ColOps

end
-- ==== Proof.TailDefs.lean ====
/-
  Two small facts the last stage's two readings share: the wrap of a negative row number around the 100000 rows, and
  a finite sum over a + b indices split into the sum over the first a and the sum over the last b.
-/
import Idealize.ShloMosaic.Lib.ValueIdx
import Idealize.ShloMosaic.PureOps.Ideal.Laws

namespace Cert.Bridge

open Idealize.ShloMosaic

/-- A row number with the negative ones wrapped around the 100000 rows. -/
def wrapRow (v : BitVec 32) : BitVec 32 := Scalar.select (IntOp.cmpi .slt v 0#32) (IntOp.addi v 100000#32) v

/-- A sum over n = a + b indices, split at a. -/
theorem sum_split {M : Type} [AddCommMonoid M] (a b n : ℕ) (h : a + b = n) (f : Fin n → M) :
    ∑ k : Fin n, f k = ∑ k : Fin a, f ⟨k.val, by have := k.isLt; omega⟩ + ∑ k : Fin b, f ⟨a + k.val, by have := k.isLt; omega⟩ := by
  subst h
  rw [Fin.sum_univ_add]
  rfl

end Cert.Bridge
-- ==== Proof.TailKernel.lean ====
/-
  The end of the kernel's program, read at an entry. After the third matrix kernel has produced X = y · [A₁ | A₂] (y the
  second hidden layer, 100000 by 256; A₁ and A₂ the first and the last 256 rows of the 512-row weight A, laid side by
  side; the added bias row is zero), the program gathers for every edge e the segment of 256 columns starting at column
  0 of row r₇ e of X and the segment starting at column 256 of row r₈ e, adds the two and adds the bias b. Here r₇ e and
  r₈ e are the edge's two row numbers, the negative ones wrapped around, clamped into the rows that exist. So entry
  (e, j) is the sum over k of y(r₇ e, k) · A(k, j), plus the sum over k of y(r₈ e, k) · A(256 + k, j), plus b(j).
-/
import proofs.«110293_j1056561954976_2_alg».proof.Proof.Gen.KernelIdeal.Frame
import proofs.«110293_j1056561954976_2_alg».proof.Proof.Region2
import proofs.«110293_j1056561954976_2_alg».proof.Proof.LibGatherCols
import proofs.«110293_j1056561954976_2_alg».proof.Proof.LibBroadcastInDim
import proofs.«110293_j1056561954976_2_alg».proof.Proof.TailDefs
import Idealize.ShloMosaic.Lib.Pipeline.Value
import Idealize.ShloMosaic.Lib.ValueIdx
import Idealize.ShloMosaic.Lib.ValueLayout
import Idealize.ShloMosaic.PureOps.Ideal.Laws

noncomputable section
namespace Cert.Bridge
open Cert.KernelIdeal Cert.KernelIdeal.Gen Idealize.ShloMosaic Idealize.ShloMosaic.TcCoe Idealize.SL.Sem
open Idealize.ShloMosaic.ValueIdx Idealize.ShloMosaic.StableHlo

/-- The same for a whole array of 250000 row numbers, as the program spells it. -/
abbrev wrapRows (x : IVec S250000 32) : IVec S250000 32 :=
  select (cmpi .slt x (broadcastInDim S250000 ![] bcast_S_S250000 (constantI S_ 32 0#32)))
    (addi x (broadcastInDim S250000 ![] bcast_S_S250000 (constantI S_ 32 100000#32))) x

theorem wrapRows_apply (x : IVec S250000 32) (e : Fin 250000) : wrapRows x (ix1 e) = wrapRow (x (ix1 e)) := by
  show Scalar.select (IntOp.cmpi .slt (x (ix1 e)) (broadcastInDim S250000 ![] bcast_S_S250000 (constantI S_ 32 0#32) (ix1 e)))
      (IntOp.addi (x (ix1 e)) (broadcastInDim S250000 ![] bcast_S_S250000 (constantI S_ 32 100000#32) (ix1 e))) (x (ix1 e)) = _
  rw [broadcastInDim_scalar_apply, broadcastInDim_scalar_apply]
  rfl

/-- The index array of the segment gather: the wrapped row numbers beside a constant column start. -/
abbrev segIdx (x : IVec S250000 32) (s : BitVec 32) : IVec S250000x2 32 :=
  concatenate S250000x2 1 [⟨S250000x1, broadcastInDim S250000x1 ![0] bcast_S250000_S250000x1_0 (wrapRows x)⟩,
    ⟨S250000x1, broadcastInDim S250000x1 ![] bcast_S_S250000x1 (constantI S_ 32 s)⟩] concatenates_S250000x1_S250000x1_S250000x2_d1

theorem segIdx_row (x : IVec S250000 32) (s : BitVec 32) (e : Fin 250000) :
    segIdx x s (ix2 e (0 : Fin 2)) = wrapRow (x (ix1 e)) := by
  refine (concatenate_pair_apply_left (t := S250000x2) (s₁ := S250000x1) (s₂ := S250000x1) 1 _ _ _ (ix2 e (0 : Fin 2)) rfl (ix2 e (0 : Fin 1))
    (fun b => match b with | ⟨0, _⟩ => rfl | ⟨1, _⟩ => rfl)).trans ?_
  rw [broadcastInDim_a_a1_apply, wrapRows_apply]

theorem segIdx_col (x : IVec S250000 32) (s : BitVec 32) (e : Fin 250000) :
    segIdx x s (ix2 e (1 : Fin 2)) = s := by
  refine (concatenate_pair_apply_right (t := S250000x2) (s₁ := S250000x1) (s₂ := S250000x1) 1 _ _ _ (ix2 e (1 : Fin 2)) rfl rfl (ix2 e (0 : Fin 1))
    (fun b => match b with | ⟨0, _⟩ => fun _ => rfl | ⟨1, _⟩ => fun h => absurd rfl h) rfl).trans ?_
  rw [broadcastInDim_scalar_apply]
  rfl

/-- What the last stretch of host operations leaves in the result buffer, as a term of the buffers it reads. -/
theorem ops3_result (F : Valuation τ sig (Elt Ideal)) :
    StableHlo.after hostOps3 F (Proc.devRef .tc main_v133)
      = addf (F := Ideal) (φ := .f32) (addf (F := Ideal) (φ := .f32)
          (Host.gather gather_S100000x512_S250000x2_S250000x256_1_0_n_n_01_1_1256 (F (Proc.devRef .tc main_v111))
            (segIdx (F (Proc.devRef .tc main_arg7)) 0#32))
          (Host.gather gather_S100000x512_S250000x2_S250000x256_1_0_n_n_01_1_1256 (F (Proc.devRef .tc main_v111))
            (segIdx (F (Proc.devRef .tc main_arg8)) 256#32)))
        (broadcastInDim S250000x256 ![0, 1] bcast_S1x256_S250000x256_0_1
          (broadcastInDim S1x256 ![1] bcast_S256_S1x256_1 (F (Proc.devRef .tc main_arg19)))) := by
  after_results_simp <;> rfl

/-- The gathered and summed entry: the two segment gathers read rows P7 and P8 of X at columns j and 256 + j, and the
    bias row is added. -/
theorem ops3_entry (X : Vec Ideal S100000x512 .f32) (a7 a8 : IVec S250000 32) (a19 : FVec Ideal S256 .f32)
    (e : Fin 250000) (j : Fin 256) (P7 P8 : Fin 100000)
    (h7 : P7.val = min (wrapRow (a7 (ix1 e))).toInt.toNat 99999)
    (h8 : P8.val = min (wrapRow (a8 (ix1 e))).toInt.toNat 99999) :
    addf (F := Ideal) (φ := .f32) (addf (F := Ideal) (φ := .f32)
        (Host.gather gather_S100000x512_S250000x2_S250000x256_1_0_n_n_01_1_1256 X (segIdx a7 0#32))
        (Host.gather gather_S100000x512_S250000x2_S250000x256_1_0_n_n_01_1_1256 X (segIdx a8 256#32)))
      (broadcastInDim S250000x256 ![0, 1] bcast_S1x256_S250000x256_0_1 (broadcastInDim S1x256 ![1] bcast_S256_S1x256_1 a19))
      (ix2 e j)
    = (X (ix2 P7 (⟨j.val, by have := j.isLt; omega⟩ : Fin 512)) + X (ix2 P8 (⟨256 + j.val, by have := j.isLt; omega⟩ : Fin 512)))
        + a19 (ix1 j) := by
  show (Host.gather gather_S100000x512_S250000x2_S250000x256_1_0_n_n_01_1_1256 X (segIdx a7 0#32) (ix2 e j)
      + Host.gather gather_S100000x512_S250000x2_S250000x256_1_0_n_n_01_1_1256 X (segIdx a8 256#32) (ix2 e j))
      + broadcastInDim S250000x256 ![0, 1] bcast_S1x256_S250000x256_0_1 (broadcastInDim S1x256 ![1] bcast_S256_S1x256_1 a19) (ix2 e j) = _
  rw [broadcastInDim_1b_ab_apply, broadcastInDim_b_1b_apply]
  refine congrArg₂ (· + ·) (congrArg₂ (· + ·) ?_ ?_) rfl
  · refine ColOps.gather_segments_apply gather_S100000x512_S250000x2_S250000x256_1_0_n_n_01_1_1256.wf X (segIdx a7 0#32) e j P7 _ ?_ ?_
    · rw [segIdx_row]; exact h7
    · rw [segIdx_col]; show j.val = min (0#32 : BitVec 32).toInt.toNat (512 - 256) + j.val
      rw [show (0#32 : BitVec 32).toInt.toNat = 0 from by decide]; omega
  · refine ColOps.gather_segments_apply gather_S100000x512_S250000x2_S250000x256_1_0_n_n_01_1_1256.wf X (segIdx a8 256#32) e j P8 _ ?_ ?_
    · rw [segIdx_row]; exact h8
    · rw [segIdx_col]; show 256 + j.val = min (256#32 : BitVec 32).toInt.toNat (512 - 256) + j.val
      rw [show (256#32 : BitVec 32).toInt.toNat = 256 from by decide]; omega

/-- What the stretch of host operations before the third kernel leaves in the right factor's buffer: the two halves of
    the 512-row weight laid side by side. -/
theorem ops2_w (F : Valuation τ sig (Elt Ideal)) :
    StableHlo.after hostOps2 F (Proc.devRef .tc main_v108)
      = concatenate S256x512 1 [⟨S256x256, extractStridedSlice S256x256 ![0, 0] (F (Proc.devRef .tc main_arg18)) slices_S512x256_S256x256_0_0⟩,
          ⟨S256x256, extractStridedSlice S256x256 ![256, 0] (F (Proc.devRef .tc main_arg18)) slices_S512x256_S256x256_256_0⟩]
          concatenates_S256x256_S256x256_S256x512_d1 := by
  after_results_simp <;> rfl

/-- In the bias row's buffer: zeros. -/
theorem ops2_b (F : Valuation τ sig (Elt Ideal)) :
    StableHlo.after hostOps2 F (Proc.devRef .tc main_v110)
      = shapeCast S1x512 (broadcastInDim S512 ![] bcast_S_S512 (constant (F := Ideal) S_ .f32 0x00000000#32)) shapeCasts_S512_S1x512 := by
  after_results_simp <;> rfl

/-- The left factor's buffer is not written. -/
theorem ops2_x (F : Valuation τ sig (Elt Ideal)) :
    StableHlo.after hostOps2 F (Proc.devRef .tc main_v105) = F (Proc.devRef .tc main_v105) := by
  after_results_simp

/-- Columns below 256 of the side-by-side weight are the weight's first 256 rows. -/
theorem wcat_left (A : Vec Ideal S512x256 .f32) (k j : Fin 256) :
    concatenate S256x512 1 [⟨S256x256, extractStridedSlice S256x256 ![0, 0] A slices_S512x256_S256x256_0_0⟩,
        ⟨S256x256, extractStridedSlice S256x256 ![256, 0] A slices_S512x256_S256x256_256_0⟩]
        concatenates_S256x256_S256x256_S256x512_d1 (ix2 k (⟨j.val, by have := j.isLt; omega⟩ : Fin 512))
      = A (ix2 (⟨k.val, by have := k.isLt; omega⟩ : Fin 512) j) := by
  refine (concatenate_pair_apply_left (t := S256x512) (s₁ := S256x256) (s₂ := S256x256) 1 _ _ _ _ rfl (ix2 k j)
    (fun b => match b with | ⟨0, _⟩ => rfl | ⟨1, _⟩ => rfl)).trans ?_
  refine extractStridedSlice_apply _ A _ (ix2 k j) _ (fun a => ?_)
  match a with
  | ⟨0, _⟩ => show k.val = 0 + k.val; omega
  | ⟨1, _⟩ => show j.val = 0 + j.val; omega

/-- Columns from 256 on are its last 256 rows. -/
theorem wcat_right (A : Vec Ideal S512x256 .f32) (k j : Fin 256) :
    concatenate S256x512 1 [⟨S256x256, extractStridedSlice S256x256 ![0, 0] A slices_S512x256_S256x256_0_0⟩,
        ⟨S256x256, extractStridedSlice S256x256 ![256, 0] A slices_S512x256_S256x256_256_0⟩]
        concatenates_S256x256_S256x256_S256x512_d1 (ix2 k (⟨256 + j.val, by have := j.isLt; omega⟩ : Fin 512))
      = A (ix2 (⟨256 + k.val, by have := k.isLt; omega⟩ : Fin 512) j) := by
  refine (concatenate_pair_apply_right (t := S256x512) (s₁ := S256x256) (s₂ := S256x256) 1 _ _ _ _ rfl rfl (ix2 k j)
    (fun b => match b with | ⟨0, _⟩ => fun _ => rfl | ⟨1, _⟩ => fun h => absurd rfl h) (by show j.val + 256 = 256 + j.val; omega)).trans ?_
  refine extractStridedSlice_apply _ A _ (ix2 k j) _ (fun a => ?_)
  match a with
  | ⟨0, _⟩ => show 256 + k.val = 256 + k.val; rfl
  | ⟨1, _⟩ => show j.val = 0 + j.val; omega

/-- The bias row of zeros at an entry. -/
theorem zero_row (q : Fin 512) :
    shapeCast S1x512 (broadcastInDim S512 ![] bcast_S_S512 (constant (F := Ideal) S_ .f32 0x00000000#32)) shapeCasts_S512_S1x512 (ix2 (0 : Fin 1) q)
      = (0 : EReal) := by
  rw [shapeCast_a_1a_apply, broadcastInDim_scalar_apply]
  exact Ideal.ofBits_zero_f32

variable (m : (ℓ : Loc nD τ sig) → Buf (Elt Ideal) ℓ) (ρ : Dev nD → PrngReg)

/-- The arguments the tail reads are as launched when it reads them. -/
theorem W6_arg7 (c : Dev nD) : W6 m ρ c (Proc.devRef .tc main_arg7) = m ((c : Thread nD τ).loc main_arg7) :=
  (show StableHlo.after hostOps3 (W6 m ρ c) (Proc.devRef .tc main_arg7) = W6 m ρ c (Proc.devRef .tc main_arg7) by after_results_simp).symm.trans
    (W7_main_arg7 m ρ c)
theorem W6_arg8 (c : Dev nD) : W6 m ρ c (Proc.devRef .tc main_arg8) = m ((c : Thread nD τ).loc main_arg8) :=
  (show StableHlo.after hostOps3 (W6 m ρ c) (Proc.devRef .tc main_arg8) = W6 m ρ c (Proc.devRef .tc main_arg8) by after_results_simp).symm.trans
    (W7_main_arg8 m ρ c)
theorem W6_arg19 (c : Dev nD) : W6 m ρ c (Proc.devRef .tc main_arg19) = m ((c : Thread nD τ).loc main_arg19) :=
  (show StableHlo.after hostOps3 (W6 m ρ c) (Proc.devRef .tc main_arg19) = W6 m ρ c (Proc.devRef .tc main_arg19) by after_results_simp).symm.trans
    (W7_main_arg19 m ρ c)
theorem W4_arg18 (c : Dev nD) : W4 m ρ c (Proc.devRef .tc main_arg18) = m ((c : Thread nD τ).loc main_arg18) :=
  ((show StableHlo.after hostOps3 (W6 m ρ c) (Proc.devRef .tc main_arg18) = W6 m ρ c (Proc.devRef .tc main_arg18) by after_results_simp).trans
    ((W6_of_ne m ρ c main_arg18 (by decide)).trans
      (show StableHlo.after hostOps2 (W4 m ρ c) (Proc.devRef .tc main_arg18) = W4 m ρ c (Proc.devRef .tc main_arg18) by after_results_simp))).symm.trans
    (W7_main_arg18 m ρ c)

/-- The third kernel's result array X when the tail reads it, at an entry: with y the second hidden layer and A the
    512-row weight, entry (P, j) is the sum over k of y(P, k) · A(k, j), and entry (P, 256 + j) the sum of y(P, k) · A(256 + k, j). -/
theorem AB_left (c : Dev nD) (y : S100000x256.Idx → EReal) (hy : W4 m ρ c (Proc.devRef .tc main_v105) = y)
    (X : S100000x512.Idx → EReal) (hX : W6 m ρ c (Proc.devRef .tc main_v111) = X)
    (A : S512x256.Idx → EReal) (hA : m ((c : Thread nD τ).loc main_arg18) = A) (P : Fin 100000) (j : Fin 256) :
    X (ix2 P (⟨j.val, by have := j.isLt; omega⟩ : Fin 512))
      = ∑ k : Fin 256, y (ix2 P k) * A (ix2 (⟨k.val, by have := k.isLt; omega⟩ : Fin 512) j) := by
  have h := Cert.KernelIdeal.Blocks.R2.final_apply (V5 m ρ) c y _ _ ((ops2_x (W4 m ρ c)).trans hy) (ops2_w (W4 m ρ c)) (ops2_b (W4 m ρ c)) P (⟨j.val, by have := j.isLt; omega⟩ : Fin 512)
  rw [zero_row, add_zero, W4_arg18, hA] at h
  have h' : @Eq EReal ((dat2 (V5 m ρ) c).arrAt 3 cfg2.N (ix2 P (⟨j.val, by have := j.isLt; omega⟩ : Fin 512) : S100000x512.Idx))
      (∑ k : Fin 256, y (ix2 P k) * A (ix2 (⟨k.val, by have := k.isLt; omega⟩ : Fin 512) j)) :=
    h.trans (Finset.sum_congr (M := EReal) rfl fun k _ => by rw [wcat_left])
  exact ((congrFun hX.symm _).trans (congrFun (W6_arr m ρ c 3) _)).trans h'

theorem AB_right (c : Dev nD) (y : S100000x256.Idx → EReal) (hy : W4 m ρ c (Proc.devRef .tc main_v105) = y)
    (X : S100000x512.Idx → EReal) (hX : W6 m ρ c (Proc.devRef .tc main_v111) = X)
    (A : S512x256.Idx → EReal) (hA : m ((c : Thread nD τ).loc main_arg18) = A) (P : Fin 100000) (j : Fin 256) :
    X (ix2 P (⟨256 + j.val, by have := j.isLt; omega⟩ : Fin 512))
      = ∑ k : Fin 256, y (ix2 P k) * A (ix2 (⟨256 + k.val, by have := k.isLt; omega⟩ : Fin 512) j) := by
  have h := Cert.KernelIdeal.Blocks.R2.final_apply (V5 m ρ) c y _ _ ((ops2_x (W4 m ρ c)).trans hy) (ops2_w (W4 m ρ c)) (ops2_b (W4 m ρ c)) P (⟨256 + j.val, by have := j.isLt; omega⟩ : Fin 512)
  rw [zero_row, add_zero, W4_arg18, hA] at h
  have h' : @Eq EReal ((dat2 (V5 m ρ) c).arrAt 3 cfg2.N (ix2 P (⟨256 + j.val, by have := j.isLt; omega⟩ : Fin 512) : S100000x512.Idx))
      (∑ k : Fin 256, y (ix2 P k) * A (ix2 (⟨256 + k.val, by have := k.isLt; omega⟩ : Fin 512) j)) :=
    h.trans (Finset.sum_congr (M := EReal) rfl fun k _ => by rw [wcat_right])
  exact ((congrFun hX.symm _).trans (congrFun (W6_arr m ρ c 3) _)).trans h'

/-- THE KERNEL'S RESULT AT AN ENTRY: with P7, P8 the wrapped and clamped row numbers of edge e, the two half products
    summed and the bias added. -/
theorem kernel_tail_apply (c : Dev nD) (y : S100000x256.Idx → EReal) (hy : W4 m ρ c (Proc.devRef .tc main_v105) = y)
    (out : S250000x256.Idx → EReal) (hout : W7 m ρ c (Proc.devRef .tc main_v133) = out)
    (a7 a8 : S250000.Idx → BitVec 32) (ha7 : m ((c : Thread nD τ).loc main_arg7) = a7) (ha8 : m ((c : Thread nD τ).loc main_arg8) = a8)
    (A : S512x256.Idx → EReal) (hA : m ((c : Thread nD τ).loc main_arg18) = A)
    (b : S256.Idx → EReal) (hb : m ((c : Thread nD τ).loc main_arg19) = b)
    (e : Fin 250000) (j : Fin 256) (P7 P8 : Fin 100000)
    (h7 : P7.val = min (wrapRow (a7 (ix1 e))).toInt.toNat 99999)
    (h8 : P8.val = min (wrapRow (a8 (ix1 e))).toInt.toNat 99999) :
    out (ix2 e j)
      = (∑ k : Fin 256, y (ix2 P7 k) * A (ix2 (⟨k.val, by have := k.isLt; omega⟩ : Fin 512) j)
          + ∑ k : Fin 256, y (ix2 P8 k) * A (ix2 (⟨256 + k.val, by have := k.isLt; omega⟩ : Fin 512) j))
        + b (ix1 j) := by
  subst hout ha7 ha8 hb
  show StableHlo.after hostOps3 (W6 m ρ c) (Proc.devRef .tc main_v133) (ix2 e j) = _
  rw [ops3_result, W6_arg7, W6_arg8, W6_arg19, ops3_entry _ _ _ _ e j P7 P8 h7 h8,
    AB_left m ρ c y hy _ rfl A hA, AB_right m ρ c y hy _ rfl A hA]

end Cert.Bridge

end
-- ==== Proof.TailRef.lean ====
/-
  The reference's last stage, read at an entry. From the second hidden layer y (100000 by 256) it gathers for every
  edge e the rows r₇ e and r₈ e (the edge's two row numbers, negative ones wrapped around, clamped into the rows that
  exist), lays them side by side as one row of 512, multiplies by the 512-row weight A and adds the bias b. The sum
  over the 512 inner indices splits at 256: entry (e, j) is the sum over k of y(r₇ e, k) · A(k, j), plus the sum over k
  of y(r₈ e, k) · A(256 + k, j), plus b(j).
-/
import proofs.«110293_j1056561954976_2_alg».proof.Proof.Gen.ReferenceIdeal.Read
import proofs.«110293_j1056561954976_2_alg».proof.Proof.LibRowGatherScatter
import proofs.«110293_j1056561954976_2_alg».proof.Proof.LibPlainDot
import proofs.«110293_j1056561954976_2_alg».proof.Proof.TailDefs
import Idealize.ShloMosaic.Lib.Pipeline.Value
import Idealize.ShloMosaic.Lib.ValueIdx
import Idealize.ShloMosaic.PureOps.Ideal.Laws

noncomputable section
namespace Cert.Bridge
open Idealize.ShloMosaic Idealize.ShloMosaic.TcCoe Idealize.SL.Sem
open Idealize.ShloMosaic.ValueIdx

/-- The reference's row numbers of edge e: the same wrap as the kernel's. -/
theorem ref_rows7 (a7 : IVec Cert.ReferenceIdeal.S250000 32) (e : Fin 250000) :
    Cert.ReferenceIdeal.Read.val_main_v115 (F := Ideal) a7 (RowOps.col0 e) = wrapRow (a7 (ix1 e)) := by
  have hi : Cert.ReferenceIdeal.Read.idx_main_v115 (RowOps.col0 e) = ix1 e := funext fun a => match a with | ⟨0, _⟩ => rfl
  rw [Cert.ReferenceIdeal.Read.val_main_v115_apply, hi, Cert.ReferenceIdeal.Read.val_main_v114_apply,
    Cert.ReferenceIdeal.Read.val_main_v111_apply, Cert.ReferenceIdeal.Read.val_main_v113_apply,
    Cert.ReferenceIdeal.Read.val_main_v110_apply, Cert.ReferenceIdeal.Read.val_main_v112_apply]
  rfl

theorem ref_rows8 (a8 : IVec Cert.ReferenceIdeal.S250000 32) (e : Fin 250000) :
    Cert.ReferenceIdeal.Read.val_main_v122 (F := Ideal) a8 (RowOps.col0 e) = wrapRow (a8 (ix1 e)) := by
  have hi : Cert.ReferenceIdeal.Read.idx_main_v122 (RowOps.col0 e) = ix1 e := funext fun a => match a with | ⟨0, _⟩ => rfl
  rw [Cert.ReferenceIdeal.Read.val_main_v122_apply, hi, Cert.ReferenceIdeal.Read.val_main_v121_apply,
    Cert.ReferenceIdeal.Read.val_main_v118_apply, Cert.ReferenceIdeal.Read.val_main_v120_apply,
    Cert.ReferenceIdeal.Read.val_main_v117_apply, Cert.ReferenceIdeal.Read.val_main_v119_apply]
  rfl

/-- The reference's stage as a term of the second hidden layer y and the arguments. -/
abbrev refTail (y : Cert.ReferenceIdeal.S100000x256.Idx → EReal) (a7 a8 : IVec Cert.ReferenceIdeal.S250000 32)
    (A : Cert.ReferenceIdeal.S512x256.Idx → EReal) (b : Cert.ReferenceIdeal.S256.Idx → EReal) : Cert.ReferenceIdeal.S250000x256.Idx → EReal :=
  addf (F := Ideal) (φ := .f32)
    (Host.dotGeneral (F := Ideal) (φ₁ := .f32) (φ₂ := .f32) Cert.ReferenceIdeal.dot_S250000x512_S512x256_S250000x256_1_0_0_1_n_n none
      (concatenate Cert.ReferenceIdeal.S250000x512 1
        [⟨Cert.ReferenceIdeal.S250000x256, Host.gather Cert.ReferenceIdeal.gather_S100000x256_S250000x1_S250000x256_1_0_n_n_0_1_1256 y (Cert.ReferenceIdeal.Read.val_main_v115 (F := Ideal) a7)⟩,
         ⟨Cert.ReferenceIdeal.S250000x256, Host.gather Cert.ReferenceIdeal.gather_S100000x256_S250000x1_S250000x256_1_0_n_n_0_1_1256 y (Cert.ReferenceIdeal.Read.val_main_v122 (F := Ideal) a8)⟩]
        Cert.ReferenceIdeal.Facts₀.concatenates_S250000x256_S250000x256_S250000x512_d1)
      A)
    (Cert.ReferenceIdeal.Read.val_main_v127 (F := Ideal) b)

/-- THE REFERENCE'S STAGE AT AN ENTRY: the product with the 512-row weight splits at 256 into the two half products. -/
theorem ref_tail_apply (y : Cert.ReferenceIdeal.S100000x256.Idx → EReal) (a7 a8 : IVec Cert.ReferenceIdeal.S250000 32)
    (A : Cert.ReferenceIdeal.S512x256.Idx → EReal) (b : Cert.ReferenceIdeal.S256.Idx → EReal)
    (e : Fin 250000) (j : Fin 256) (P7 P8 : Fin 100000)
    (h7 : P7.val = min (wrapRow (a7 (ix1 e))).toInt.toNat 99999)
    (h8 : P8.val = min (wrapRow (a8 (ix1 e))).toInt.toNat 99999) :
    refTail y a7 a8 A b (ix2 e j)
      = (∑ k : Fin 256, y (ix2 P7 k) * A (ix2 (⟨k.val, by have := k.isLt; omega⟩ : Fin 512) j)
          + ∑ k : Fin 256, y (ix2 P8 k) * A (ix2 (⟨256 + k.val, by have := k.isLt; omega⟩ : Fin 512) j))
        + b (ix1 j) := by
  have hb : Cert.ReferenceIdeal.Read.val_main_v127 (F := Ideal) b (ix2 e j) = b (ix1 j) := by
    rw [Cert.ReferenceIdeal.Read.val_main_v127_apply, Cert.ReferenceIdeal.Read.val_main_v126_apply]
    exact congrArg b (funext fun a => match a with | ⟨0, _⟩ => rfl)
  have hP7 : RowOps.gatheredRow (N := 100000) (by decide) (Cert.ReferenceIdeal.Read.val_main_v115 (F := Ideal) a7) e = P7 :=
    Fin.ext (by show min _ (100000 - 1) = P7.val; rw [ref_rows7, h7])
  have hP8 : RowOps.gatheredRow (N := 100000) (by decide) (Cert.ReferenceIdeal.Read.val_main_v122 (F := Ideal) a8) e = P8 :=
    Fin.ext (by show min _ (100000 - 1) = P8.val; rw [ref_rows8, h8])
  show FloatOps.dotGeneral (F := Ideal) (φ₁ := .f32) (φ₂ := .f32) Cert.ReferenceIdeal.dot_S250000x512_S512x256_S250000x256_1_0_0_1_n_n none .single _ A (ix2 e j)
      + Cert.ReferenceIdeal.Read.val_main_v127 (F := Ideal) b (ix2 e j) = _
  rw [hb, dotGeneral_plain_apply Cert.ReferenceIdeal.dot_S250000x512_S512x256_S250000x256_1_0_0_1_n_n rfl, sum_split 256 256 512 rfl]
  refine congrArg₂ (· + ·) (congrArg₂ (· + ·) (Finset.sum_congr rfl fun k _ => ?_) (Finset.sum_congr rfl fun k _ => ?_)) rfl
  · refine congrArg₂ (· * ·) ?_ rfl
    refine (concatenate_pair_apply_left (t := Cert.ReferenceIdeal.S250000x512) (s₁ := Cert.ReferenceIdeal.S250000x256) (s₂ := Cert.ReferenceIdeal.S250000x256) 1 _ _ _ _ rfl (ix2 e k)
      (fun b => match b with | ⟨0, _⟩ => rfl | ⟨1, _⟩ => rfl)).trans ?_
    exact (RowOps.gather_rows_apply (N := 100000) (R := 250000) (C := 256) (by decide) Cert.ReferenceIdeal.gather_S100000x256_S250000x1_S250000x256_1_0_n_n_0_1_1256.wf y _ e k).trans (by rw [hP7])
  · refine congrArg₂ (· * ·) ?_ rfl
    refine (concatenate_pair_apply_right (t := Cert.ReferenceIdeal.S250000x512) (s₁ := Cert.ReferenceIdeal.S250000x256) (s₂ := Cert.ReferenceIdeal.S250000x256) 1 _ _ _ _ rfl rfl (ix2 e k)
      (fun b => match b with | ⟨0, _⟩ => fun _ => rfl | ⟨1, _⟩ => fun h => absurd rfl h) (by show k.val + 256 = 256 + k.val; omega)).trans ?_
    exact (RowOps.gather_rows_apply (N := 100000) (R := 250000) (C := 256) (by decide) Cert.ReferenceIdeal.gather_S100000x256_S250000x1_S250000x256_1_0_n_n_0_1_1256.wf y _ e k).trans (by rw [hP8])

end Cert.Bridge

end
-- ==== Proof.TailStage.lean ====
/-
  The end of the kernel's program computes the reference's last stage. Both read, at entry (e, j), the same three
  terms — two products of width 256 with the two halves of the weight, and the bias — the kernel as two gathered
  segments of one wide product added, the reference as one product of width 512 of two gathered rows laid side by side.
-/
import proofs.«110293_j1056561954976_2_alg».proof.Proof.TailKernel
import proofs.«110293_j1056561954976_2_alg».proof.Proof.TailRef

noncomputable section
namespace Cert.Bridge
open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- THE TAIL OF THE KERNEL'S PROGRAM IS THE REFERENCE'S LAST STAGE of the second hidden layer y: entry (e, j) of either is
    the sum over k of y(r₇ e, k) · A(k, j) plus the sum over k of y(r₈ e, k) · A(256 + k, j) plus b(j), where r₇ e and
    r₈ e are the wrapped and clamped row numbers of edge e — in the kernel as two products of width 256 gathered and
    added, in the reference as one product of width 512 of the two gathered rows laid side by side. -/
theorem tail (c : Dev nD) (y : S100000x256.Idx → EReal) (hy : W4 m ρ c (Proc.devRef .tc main_v105) = y) :
    W7 m ρ c (Proc.devRef .tc main_v133)
      = addf (F := Ideal) (φ := .f32)
          (Host.dotGeneral (F := Ideal) (φ₁ := .f32) (φ₂ := .f32) Cert.ReferenceIdeal.dot_S250000x512_S512x256_S250000x256_1_0_0_1_n_n none
            (concatenate Cert.ReferenceIdeal.S250000x512 1
              [⟨Cert.ReferenceIdeal.S250000x256, Host.gather Cert.ReferenceIdeal.gather_S100000x256_S250000x1_S250000x256_1_0_n_n_0_1_1256 y
                  (Cert.ReferenceIdeal.Read.val_main_v115 (F := Ideal) (m ((c : Thread nD τ).loc main_arg7)))⟩,
               ⟨Cert.ReferenceIdeal.S250000x256, Host.gather Cert.ReferenceIdeal.gather_S100000x256_S250000x1_S250000x256_1_0_n_n_0_1_1256 y
                  (Cert.ReferenceIdeal.Read.val_main_v122 (F := Ideal) (m ((c : Thread nD τ).loc main_arg8)))⟩]
              Cert.ReferenceIdeal.Facts₀.concatenates_S250000x256_S250000x256_S250000x512_d1)
            (m ((c : Thread nD τ).loc main_arg18)))
          (Cert.ReferenceIdeal.Read.val_main_v127 (F := Ideal) (m ((c : Thread nD τ).loc main_arg19))) := by
  have hlt : ∀ v : BitVec 32, min (wrapRow v).toInt.toNat 99999 < 100000 := fun v => by omega
  have key : ∀ (e : Fin 250000) (j : Fin 256),
      (W7 m ρ c (Proc.devRef .tc main_v133) : S250000x256.Idx → EReal) (ix2 e j)
        = refTail y (m ((c : Thread nD τ).loc main_arg7)) (m ((c : Thread nD τ).loc main_arg8))
            (m ((c : Thread nD τ).loc main_arg18)) (m ((c : Thread nD τ).loc main_arg19)) (ix2 e j) := fun e j =>
    (kernel_tail_apply m ρ c y hy _ rfl _ _ rfl rfl _ rfl _ rfl e j ⟨_, hlt _⟩ ⟨_, hlt _⟩ rfl rfl).trans
      (ref_tail_apply y _ _ _ _ e j ⟨_, hlt _⟩ ⟨_, hlt _⟩ rfl rfl).symm
  refine funext fun i => ?_
  obtain ⟨e, j, rfl⟩ : ∃ (e : Fin 250000) (j : Fin 256), i = (ix2 e j : S250000x256.Idx) := ⟨i 0, i 1, eq_ix2 (n0 := 250000) (n1 := 256) i⟩
  exact key e j

end Cert.Bridge
end
-- ==== Proof.Result.lean ====
/-
  The kernel program's result is the reference's.
  With the second hidden layer equal, the tail of the kernel program — the split weight matrix, the third matmul
  region, the two gathers of half-rows and their sum plus the bias — gives the reference's last layer: the
  looked-up rows set side by side against the whole weight matrix, plus the bias.
-/
import proofs.«110293_j1056561954976_2_alg».proof.Proof.Gen.KernelIdeal.Frame
import proofs.«110293_j1056561954976_2_alg».proof.Proof.Gen.ReferenceIdeal.Read
import proofs.«110293_j1056561954976_2_alg».proof.Proof.Layer2
import proofs.«110293_j1056561954976_2_alg».proof.Proof.TailStage

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

theorem result_eq :
    W7 m ρ c (Proc.devRef .tc main_v133) = Cert.ReferenceIdeal.Read.val_main_v128 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) := by
  rw [tail m ρ c _ (layer2_eq m ρ c)]
  unfold Cert.ReferenceIdeal.Read.val_main_v128 Cert.ReferenceIdeal.Read.val_main_v125 Cert.ReferenceIdeal.Read.val_main_v124 Cert.ReferenceIdeal.Read.val_main_v116 Cert.ReferenceIdeal.Read.val_main_v123
  rfl

end Cert.Bridge

end
-- ==== Proof.lean ====
/-
  The certificate of the graph-network forward pass against its reference.

  Both programs compute, over extended reals: the relation embeddings of the edge types projected by two weight
  matrices and averaged over each node's outgoing and incoming edges; two graph convolutions with symmetric degree
  normalisation, each followed by a dense layer clamped below at zero; and a last dense layer on the two end nodes
  of each queried pair. They differ in four places, each an identity of finite sums over a commutative monoid:
  the projection is applied to the 500-row table before the lookup by edge type instead of to every looked-up row
  (a lookup selects a row, which a matrix product keeps); the node features are cut and set side by side in two
  orders; the dense layers run as tiled matrix products over row blocks with a zero accumulator (a block of the
  result depends on the same block of rows); and the last weight matrix is split in its two halves, the product of
  a row set side by side from two looked-up rows being the sum of the two half products. Changes of float format
  are the identity on extended reals. No step uses finiteness of the inputs.

  The frames of the two kernel programs are the generated ones; the reference's frame is its generated run with
  the result dropped; the idealization rewrote nothing.
-/
import proofs.«110293_j1056561954976_2_alg».proof.Defs
import proofs.«110293_j1056561954976_2_alg».proof.Proof.Gen.Kernel
import proofs.«110293_j1056561954976_2_alg».proof.Proof.Gen.Kernel.Skeleton
import proofs.«110293_j1056561954976_2_alg».proof.Proof.Gen.Kernel.Launch
import proofs.«110293_j1056561954976_2_alg».proof.Proof.Gen.Kernel.Points
import proofs.«110293_j1056561954976_2_alg».proof.Proof.Gen.Kernel.Frame
import proofs.«110293_j1056561954976_2_alg».proof.Proof.Gen.KernelIdeal
import proofs.«110293_j1056561954976_2_alg».proof.Proof.Gen.KernelIdeal.Skeleton
import proofs.«110293_j1056561954976_2_alg».proof.Proof.Gen.KernelIdeal.Launch
import proofs.«110293_j1056561954976_2_alg».proof.Proof.Gen.KernelIdeal.Points
import proofs.«110293_j1056561954976_2_alg».proof.Proof.Gen.KernelIdeal.Frame
import proofs.«110293_j1056561954976_2_alg».proof.Proof.Gen.ReferenceIdeal
import proofs.«110293_j1056561954976_2_alg».proof.Proof.Gen.Pre_finite_inputs
import proofs.«110293_j1056561954976_2_alg».proof.Proof.Gen.ReferenceIdeal.Run
import proofs.«110293_j1056561954976_2_alg».proof.Proof.Gen.ReferenceIdeal.Read
import proofs.«110293_j1056561954976_2_alg».proof.Proof.KRun
import proofs.«110293_j1056561954976_2_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, and the reference's result is the kernel
    program's: the result buffer at the last boundary of the kernel program's run. -/
theorem algebraic : Cert.algebraic_KernelIdeal_ReferenceIdeal := by
  intro m ρ m' ρ' _ hagree
  refine ⟨fun c => Cert.KernelIdeal.Gen.W7 m ρ c (Proc.devRef .tc Cert.KernelIdeal.main_v133), Cert.KernelIdeal.KRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v128_eq, h0, h1, h2, h3, h4, h5, h6, h7, h8, h9, h10, h11, h12, h13, h14, h15, h16, h17, h18, h19]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
